-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.sign_bit.Statement Cert.KernelIdeal.S8192x120 .f32
  ∧ IdealRules.named_const.Statement Cert.KernelIdeal.κ "inv_120" .f32 0x3C088889#32 ((1 / 120 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x1x1x120 : Shape := ⟨4, ![1048576, 1, 1, 120]⟩
abbrev S120x1x1x120 : Shape := ⟨4, ![120, 1, 1, 120]⟩
abbrev S120 : Shape := ⟨1, ![120]⟩
abbrev S1x120 : Shape := ⟨2, ![1, 120]⟩
abbrev S_ : Shape := ⟨0, ![]⟩

class Facts : Prop where
  bcast_S_S1048576x1x1x120 : S_.BroadcastsInDim S1048576x1x1x120 (![] : Fin 0 → Fin S1048576x1x1x120.rank)
  reducesTo_S1048576x1x1x120_S_d0_1_2_3 : S1048576x1x1x120.ReducesTo [0, 1, 2, 3] S_
  h_S_ : 0 < S_.numel
  bcast_S_S120x1x1x120 : S_.BroadcastsInDim S120x1x1x120 (![] : Fin 0 → Fin S120x1x1x120.rank)
  reducesTo_S120x1x1x120_S_d0_1_2_3 : S120x1x1x120.ReducesTo [0, 1, 2, 3] S_
  bcast_S_S120 : S_.BroadcastsInDim S120 (![] : Fin 0 → Fin S120.rank)
  reducesTo_S120_S_d0 : S120.ReducesTo [0] S_
  bcast_S_S1x120 : S_.BroadcastsInDim S1x120 (![] : Fin 0 → Fin S1x120.rank)
  reducesTo_S1x120_S_d0_1 : S1x120.ReducesTo [0, 1] S_

variable [Facts]

def fn_part1 {F : FTy → Type} [FloatOps F] (main_arg4 : FVec F S120 .f32) (main_arg5 : FVec F S1x120 .f32) (main_v13 : IVec S_ 1) (main_v16 : IVec S120 1) : IVec S_ 1 :=
  let main_c_5 : IVec S_ 1 := constantI S_ 1 1#1
  let main_v17 : IVec S_ 1 := (fun x v => Host.reduce IntOp.andi x v reducesTo_S120_S_d0 h_S_) main_v16 main_c_5
  let main_v18 : IVec S_ 1 := andi main_v13 main_v17
  let main_v19 : FVec F S120 .f32 := Host.absf main_arg4
  let main_cst_6 : FVec F S_ .f32 := constant S_ .f32 0x7F800000#32
  let main_v20 : FVec F S120 .f32 := broadcastInDim S120 ![] bcast_S_S120 main_cst_6
  let main_v21 : IVec S120 1 := cmpf .olt main_v19 main_v20
  let main_c_7 : IVec S_ 1 := constantI S_ 1 1#1
  let main_v22 : IVec S_ 1 := (fun x v => Host.reduce IntOp.andi x v reducesTo_S120_S_d0 h_S_) main_v21 main_c_7
  let main_v23 : IVec S_ 1 := andi main_v18 main_v22
  let main_v24 : FVec F S1x120 .f32 := Host.absf main_arg5
  let main_cst_8 : FVec F S_ .f32 := constant S_ .f32 0x7F800000#32
  let main_v25 : FVec F S1x120 .f32 := broadcastInDim S1x120 ![] bcast_S_S1x120 main_cst_8
  let main_v26 : IVec S1x120 1 := cmpf .olt main_v24 main_v25
  let main_c_9 : IVec S_ 1 := constantI S_ 1 1#1
  let main_v27 : IVec S_ 1 := (fun x v => Host.reduce IntOp.andi x v reducesTo_S1x120_S_d0_1 h_S_) main_v26 main_c_9
  let main_v28 : IVec S_ 1 := andi main_v23 main_v27
  main_v28

def fn {F : FTy → Type} [FloatOps F] (main_arg0 : FVec F S1048576x1x1x120 .f32) (main_arg1 : FVec F S120x1x1x120 .f32) (main_arg2 : FVec F S120 .f32) (main_arg3 : FVec F S120 .f32) (main_arg4 : FVec F S120 .f32) (main_arg5 : FVec F S1x120 .f32) : IVec S_ 1 :=
  let main_v0 : FVec F S1048576x1x1x120 .f32 := Host.absf main_arg0
  let main_cst : FVec F S_ .f32 := constant S_ .f32 0x7F800000#32
  let main_v1 : FVec F S1048576x1x1x120 .f32 := broadcastInDim S1048576x1x1x120 ![] bcast_S_S1048576x1x1x120 main_cst
  let main_v2 : IVec S1048576x1x1x120 1 := cmpf .olt main_v0 main_v1
  let main_c : IVec S_ 1 := constantI S_ 1 1#1
  let main_v3 : IVec S_ 1 := (fun x v => Host.reduce IntOp.andi x v reducesTo_S1048576x1x1x120_S_d0_1_2_3 h_S_) main_v2 main_c
  let main_v4 : FVec F S120x1x1x120 .f32 := Host.absf main_arg1
  let main_cst_0 : FVec F S_ .f32 := constant S_ .f32 0x7F800000#32
  let main_v5 : FVec F S120x1x1x120 .f32 := broadcastInDim S120x1x1x120 ![] bcast_S_S120x1x1x120 main_cst_0
  let main_v6 : IVec S120x1x1x120 1 := cmpf .olt main_v4 main_v5
  let main_c_1 : IVec S_ 1 := constantI S_ 1 1#1
  let main_v7 : IVec S_ 1 := (fun x v => Host.reduce IntOp.andi x v reducesTo_S120x1x1x120_S_d0_1_2_3 h_S_) main_v6 main_c_1
  let main_v8 : IVec S_ 1 := andi main_v3 main_v7
  let main_v9 : FVec F S120 .f32 := Host.absf main_arg2
  let main_cst_2 : FVec F S_ .f32 := constant S_ .f32 0x7F800000#32
  let main_v10 : FVec F S120 .f32 := broadcastInDim S120 ![] bcast_S_S120 main_cst_2
  let main_v11 : IVec S120 1 := cmpf .olt main_v9 main_v10
  let main_c_3 : IVec S_ 1 := constantI S_ 1 1#1
  let main_v12 : IVec S_ 1 := (fun x v => Host.reduce IntOp.andi x v reducesTo_S120_S_d0 h_S_) main_v11 main_c_3
  let main_v13 : IVec S_ 1 := andi main_v8 main_v12
  let main_v14 : FVec F S120 .f32 := Host.absf main_arg3
  let main_cst_4 : FVec F S_ .f32 := constant S_ .f32 0x7F800000#32
  let main_v15 : FVec F S120 .f32 := broadcastInDim S120 ![] bcast_S_S120 main_cst_4
  let main_v16 : IVec S120 1 := cmpf .olt main_v14 main_v15
  fn_part1 (F := F) main_arg4 main_arg5 main_v13 main_v16
-- ==== Kernel.lean ====
abbrev S1048576x1x1x120 : Shape := ⟨4, ![1048576, 1, 1, 120]⟩
abbrev S120x1x1x120 : Shape := ⟨4, ![120, 1, 1, 120]⟩
abbrev S120 : Shape := ⟨1, ![120]⟩
abbrev S1x120 : Shape := ⟨2, ![1, 120]⟩
abbrev S1048576x120 : Shape := ⟨2, ![1048576, 120]⟩
abbrev S120x120 : Shape := ⟨2, ![120, 120]⟩
abbrev S_ : Shape := ⟨0, ![]⟩
abbrev S120x1 : Shape := ⟨2, ![120, 1]⟩
abbrev S120x121 : Shape := ⟨2, ![120, 121]⟩
abbrev S1x1 : Shape := ⟨2, ![1, 1]⟩
abbrev S1x121 : Shape := ⟨2, ![1, 121]⟩
abbrev S1048576 : Shape := ⟨1, ![1048576]⟩
abbrev S8192x120 : Shape := ⟨2, ![8192, 120]⟩
abbrev S8192 : Shape := ⟨1, ![8192]⟩
abbrev S8192x121 : Shape := ⟨2, ![8192, 121]⟩
abbrev S8192x1 : Shape := ⟨2, ![8192, 1]⟩
abbrev S1048576x1 : Shape := ⟨2, ![1048576, 1]⟩

abbrev nBuf : Space → Nat
  | .hbm => 24
  | .vmem => 9
  | .smem => 0
  | _ => 0

abbrev bufTy : (tb : Table) → Fin (tcTables nBuf tb) → BufTy
  | .hbm, ⟨0, _⟩ => ⟨S1048576x1x1x120, .f32⟩
  | .hbm, ⟨1, _⟩ => ⟨S120x1x1x120, .f32⟩
  | .hbm, ⟨2, _⟩ => ⟨S120, .f32⟩
  | .hbm, ⟨3, _⟩ => ⟨S120, .f32⟩
  | .hbm, ⟨4, _⟩ => ⟨S120, .f32⟩
  | .hbm, ⟨5, _⟩ => ⟨S1x120, .f32⟩
  | .hbm, ⟨6, _⟩ => ⟨S1048576x120, .f32⟩
  | .hbm, ⟨7, _⟩ => ⟨S120x120, .f32⟩
  | .hbm, ⟨8, _⟩ => ⟨S120x120, .f32⟩
  | .hbm, ⟨9, _⟩ => ⟨S120x120, .f32⟩
  | .hbm, ⟨10, _⟩ => ⟨S_, .f32⟩
  | .hbm, ⟨11, _⟩ => ⟨S120, .f32⟩
  | .hbm, ⟨12, _⟩ => ⟨S120x1, .f32⟩
  | .hbm, ⟨13, _⟩ => ⟨S120x121, .f32⟩
  | .hbm, ⟨14, _⟩ => ⟨S120x121, .bf16⟩
  | .hbm, ⟨15, _⟩ => ⟨S1x120, .f32⟩
  | .hbm, ⟨16, _⟩ => ⟨S_, .f32⟩
  | .hbm, ⟨17, _⟩ => ⟨S_, .f32⟩
  | .hbm, ⟨18, _⟩ => ⟨S1x1, .f32⟩
  | .hbm, ⟨19, _⟩ => ⟨S1x121, .f32⟩
  | .hbm, ⟨20, _⟩ => ⟨S1x120, .f32⟩
  | .hbm, ⟨21, _⟩ => ⟨S1x120, .f32⟩
  | .hbm, ⟨22, _⟩ => ⟨S1048576, .f32⟩
  | .hbm, ⟨23, _⟩ => ⟨S1048576x1, .f32⟩
  | .local _ .vmem, ⟨0, _⟩ => ⟨S8192x120, .f32⟩
  | .local _ .vmem, ⟨1, _⟩ => ⟨S8192x120, .f32⟩
  | .local _ .vmem, ⟨2, _⟩ => ⟨S120x121, .bf16⟩
  | .local _ .vmem, ⟨3, _⟩ => ⟨S1x121, .f32⟩
  | .local _ .vmem, ⟨4, _⟩ => ⟨S1x120, .f32⟩
  | .local _ .vmem, ⟨5, _⟩ => ⟨S1x120, .f32⟩
  | .local _ .vmem, ⟨6, _⟩ => ⟨S1x120, .f32⟩
  | .local _ .vmem, ⟨7, _⟩ => ⟨S8192, .f32⟩
  | .local _ .vmem, ⟨8, _⟩ => ⟨S8192, .f32⟩
  | _, _ => ⟨S1048576x1x1x120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [BitOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S120x121 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x121 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S1048576x1x1x120_S1048576x120 : S1048576x1x1x120.ShapeCasts S1048576x120
  shapeCasts_S120x1x1x120_S120x120 : S120x1x1x120.ShapeCasts S120x120
  transposes_S120x120_S120x120_1_0 : S120x120.Transposes [1, 0] S120x120
  reducesTo_S120x120_S120_d0 : S120x120.ReducesTo [0] S120
  h_S_ : 0 < S_.numel
  shapeCasts_S120_S120x1 : S120.ShapeCasts S120x1
  concatenates_S120x120_S120x1_S120x121_d1 : Shape.Concatenates [S120x120, S120x1] S120x121 1
  bitsLt_bf16_f32 : FTy.bits .bf16 < FTy.bits .f32
  shapeCasts_S120_S1x120 : S120.ShapeCasts S1x120
  reducesTo_S120_S_d0 : S120.ReducesTo [0] S_
  shapeCasts_S_S1x1 : S_.ShapeCasts S1x1
  concatenates_S1x120_S1x1_S1x121_d1 : Shape.Concatenates [S1x120, S1x1] S1x121 1
  inb_S8192x120_S8192x120_0_0 : ∀ a, (![0, 0] : Fin 2 → Nat) a + S8192x120.size a ≤ S8192x120.size a
  h_S8192x120 : 0 < S8192x120.numel
  shapeCasts_S8192x120_S8192x120 : S8192x120.ShapeCasts S8192x120
  inb_S120x121_S120x121_0_0 : ∀ a, (![0, 0] : Fin 2 → Nat) a + S120x121.size a ≤ S120x121.size a
  h_S120x121 : 0 < S120x121.numel
  shapeCasts_S120x121_S120x121 : S120x121.ShapeCasts S120x121
  inb_S1x121_S1x121_0_0 : ∀ a, (![0, 0] : Fin 2 → Nat) a + S1x121.size a ≤ S1x121.size a
  h_S1x121 : 0 < S1x121.numel
  shapeCasts_S1x121_S1x121 : S1x121.ShapeCasts S1x121
  broadcasts_S1x121_S8192x121 : S1x121.Broadcasts S8192x121
  slices_S8192x121_o0_120_S8192x1 : S8192x121.Slices ![0, 120] S8192x1
  slices_S8192x121_o0_0_S8192x120 : S8192x121.Slices ![0, 0] S8192x120
  broadcasts_S8192x1_S8192x120 : S8192x1.Broadcasts S8192x120
  reduces_S8192x120_S8192 : S8192x120.Reduces [1] S8192
  shapeCasts_S8192_S8192x1 : S8192.ShapeCasts S8192x1
  inb_S1x120_S1x120_0_0 : ∀ a, (![0, 0] : Fin 2 → Nat) a + S1x120.size a ≤ S1x120.size a
  h_S1x120 : 0 < S1x120.numel
  shapeCasts_S1x120_S1x120 : S1x120.ShapeCasts S1x120
  broadcasts_S1x120_S8192x120 : S1x120.Broadcasts S8192x120
  inb_S8192_S8192_0 : ∀ a, (![0] : Fin 1 → Nat) a + S8192.size a ≤ S8192.size a
  h_S8192 : 0 < S8192.numel
  shapeCasts_S1048576_S1048576x1 : S1048576.ShapeCasts S1048576x1
  dot_S8192x120_S120x121_S8192x121_1_0_0_1_n_n_wf : DotDims.WF S8192x120 S120x121 S8192x121 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x120.size a ≤ S1048576x120.size a
  hwx0_0 : ∀ i : grid0.Coords, EltTy.bits .f32 = 32 ∨ (Rect.block (s := S1048576x120) S8192x120.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S120x121.size a ≤ S120x121.size a
  hwx0_1 : ∀ i : grid0.Coords, EltTy.bits .bf16 = 32 ∨ (Rect.block (s := S120x121) S120x121.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x121.size a ≤ S1x121.size a
  hwx0_2 : ∀ i : grid0.Coords, EltTy.bits .f32 = 32 ∨ (Rect.block (s := S1x121) S1x121.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x120.size a ≤ S1x120.size a
  hwx0_3 : ∀ i : grid0.Coords, EltTy.bits .f32 = 32 ∨ (Rect.block (s := S1x120) S1x120.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x120.size a ≤ S1x120.size a
  hwx0_4 : ∀ i : grid0.Coords, EltTy.bits .f32 = 32 ∨ (Rect.block (s := S1x120) S1x120.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x120.size a ≤ S1x120.size a
  hwx0_5 : ∀ i : grid0.Coords, EltTy.bits .f32 = 32 ∨ (Rect.block (s := S1x120) S1x120.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8192.size a ≤ S1048576.size a
  hwx0_6 : ∀ i : grid0.Coords, EltTy.bits .f32 = 32 ∨ (Rect.block (s := S1048576) S8192.size (cc0_transform_6 i) (hinb0_6 i)).WholeWords (EltTy.packing .f32)

variable [Facts₀]

def dot_S8192x120_S120x121_S8192x121_1_0_0_1_n_n : DotDims S8192x120 S120x121 S8192x121 where
  lhsContracting := [1]
  rhsContracting := [0]
  lhsNonContracting := [0]
  rhsNonContracting := [1]
  lhsBatch := []
  rhsBatch := []
  wf := dot_S8192x120_S120x121_S8192x121_1_0_0_1_n_n_wf

abbrev win0_0 : Pipeline.Window sig grid0 :=
  Pipeline.Window.ofSpec (Memref.whole main_v0) S8192x120.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S120x121.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x121.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x120.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x120.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x120.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S8192.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1048576x1x1x120 : Shape := ⟨4, ![1048576, 1, 1, 120]⟩
abbrev S120x1x1x120 : Shape := ⟨4, ![120, 1, 1, 120]⟩
abbrev S120 : Shape := ⟨1, ![120]⟩
abbrev S1x120 : Shape := ⟨2, ![1, 120]⟩
abbrev S1048576x120 : Shape := ⟨2, ![1048576, 120]⟩
abbrev S_ : Shape := ⟨0, ![]⟩
abbrev S120x120 : Shape := ⟨2, ![120, 120]⟩
abbrev S1048576 : Shape := ⟨1, ![1048576]⟩
abbrev S1048576x1 : Shape := ⟨2, ![1048576, 1]⟩
abbrev S120x1 : Shape := ⟨2, ![120, 1]⟩

abbrev nBuf : Space → Nat
  | .hbm => 68
  | .vmem => 0
  | .smem => 0
  | _ => 0

abbrev bufTy : (tb : Table) → Fin (tcTables nBuf tb) → BufTy
  | .hbm, ⟨0, _⟩ => ⟨S1048576x1x1x120, .f32⟩
  | .hbm, ⟨1, _⟩ => ⟨S120x1x1x120, .f32⟩
  | .hbm, ⟨2, _⟩ => ⟨S120, .f32⟩
  | .hbm, ⟨3, _⟩ => ⟨S120, .f32⟩
  | .hbm, ⟨4, _⟩ => ⟨S120, .f32⟩
  | .hbm, ⟨5, _⟩ => ⟨S1x120, .f32⟩
  | .hbm, ⟨6, _⟩ => ⟨S1048576x120, .f32⟩
  | .hbm, ⟨7, _⟩ => ⟨S_, .f32⟩
  | .hbm, ⟨8, _⟩ => ⟨S1048576x120, .f32⟩
  | .hbm, ⟨9, _⟩ => ⟨S1048576x120, .f32⟩
  | .hbm, ⟨10, _⟩ => ⟨S1048576x120, .f32⟩
  | .hbm, ⟨11, _⟩ => ⟨S120x120, .f32⟩
  | .hbm, ⟨12, _⟩ => ⟨S120x120, .f32⟩
  | .hbm, ⟨13, _⟩ => ⟨S1048576x120, .f32⟩
  | .hbm, ⟨14, _⟩ => ⟨S1x120, .f32⟩
  | .hbm, ⟨15, _⟩ => ⟨S1048576x120, .f32⟩
  | .hbm, ⟨16, _⟩ => ⟨S1048576x120, .f32⟩
  | .hbm, ⟨17, _⟩ => ⟨S_, .f32⟩
  | .hbm, ⟨18, _⟩ => ⟨S1048576, .f32⟩
  | .hbm, ⟨19, _⟩ => ⟨S1048576x1, .f32⟩
  | .hbm, ⟨20, _⟩ => ⟨S_, .f32⟩
  | .hbm, ⟨21, _⟩ => ⟨S1048576x1, .f32⟩
  | .hbm, ⟨22, _⟩ => ⟨S1048576x1, .f32⟩
  | .hbm, ⟨23, _⟩ => ⟨S_, .i32⟩
  | .hbm, ⟨24, _⟩ => ⟨S_, .f32⟩
  | .hbm, ⟨25, _⟩ => ⟨S1048576, .f32⟩
  | .hbm, ⟨26, _⟩ => ⟨S1048576x1, .f32⟩
  | .hbm, ⟨27, _⟩ => ⟨S_, .f32⟩
  | .hbm, ⟨28, _⟩ => ⟨S1048576x1, .f32⟩
  | .hbm, ⟨29, _⟩ => ⟨S1048576x1, .f32⟩
  | .hbm, ⟨30, _⟩ => ⟨S1048576x120, .f32⟩
  | .hbm, ⟨31, _⟩ => ⟨S1048576x120, .f32⟩
  | .hbm, ⟨32, _⟩ => ⟨S1048576x120, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S1048576, .f32⟩
  | .hbm, ⟨38, _⟩ => ⟨S1048576x1, .f32⟩
  | .hbm, ⟨39, _⟩ => ⟨S1048576x1, .f32⟩
  | .hbm, ⟨40, _⟩ => ⟨S1048576x1, .f32⟩
  | .hbm, ⟨41, _⟩ => ⟨S_, .f32⟩
  | .hbm, ⟨42, _⟩ => ⟨S_, .i1⟩
  | .hbm, ⟨43, _⟩ => ⟨S_, .f32⟩
  | .hbm, ⟨44, _⟩ => ⟨S_, .f32⟩
  | .hbm, ⟨45, _⟩ => ⟨S1048576x1, .f32⟩
  | .hbm, ⟨46, _⟩ => ⟨S1048576x1, .f32⟩
  | .hbm, ⟨47, _⟩ => ⟨S1048576x120, .f32⟩
  | .hbm, ⟨48, _⟩ => ⟨S1048576x120, .f32⟩
  | .hbm, ⟨49, _⟩ => ⟨S_, .f32⟩
  | .hbm, ⟨50, _⟩ => ⟨S1048576x1, .f32⟩
  | .hbm, ⟨51, _⟩ => ⟨S1048576x1, .f32⟩
  | .hbm, ⟨52, _⟩ => ⟨S1048576x1, .f32⟩
  | .hbm, ⟨53, _⟩ => ⟨S1048576x120, .f32⟩
  | .hbm, ⟨54, _⟩ => ⟨S1048576x120, .f32⟩
  | .hbm, ⟨55, _⟩ => ⟨S1x120, .f32⟩
  | .hbm, ⟨56, _⟩ => ⟨S1048576x120, .f32⟩
  | .hbm, ⟨57, _⟩ => ⟨S1048576x120, .f32⟩
  | .hbm, ⟨58, _⟩ => ⟨S1x120, .f32⟩
  | .hbm, ⟨59, _⟩ => ⟨S1048576x120, .f32⟩
  | .hbm, ⟨60, _⟩ => ⟨S1048576x120, .f32⟩
  | .hbm, ⟨61, _⟩ => ⟨S1048576x120, .f32⟩
  | .hbm, ⟨62, _⟩ => ⟨S_, .f32⟩
  | .hbm, ⟨63, _⟩ => ⟨S1048576x120, .f32⟩
  | .hbm, ⟨64, _⟩ => ⟨S1048576x120, .f32⟩
  | .hbm, ⟨65, _⟩ => ⟨S1048576x120, .f32⟩
  | .hbm, ⟨66, _⟩ => ⟨S120x1, .f32⟩
  | .hbm, ⟨67, _⟩ => ⟨S1048576x1, .f32⟩
  | _, _ => ⟨S1048576x1x1x120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_cst_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_cst_1 : Ref sig .tc := ⟨.hbm, 34, rfl⟩
abbrev main_call0_v8 : Ref sig .tc := ⟨.hbm, 35, rfl⟩
abbrev main_call0_cst_2 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_v12 : Ref sig .tc := ⟨.hbm, 40, rfl⟩
abbrev main_call0_cst_3 : Ref sig .tc := ⟨.hbm, 41, rfl⟩
abbrev main_call0_v13 : Ref sig .tc := ⟨.hbm, 42, rfl⟩
abbrev main_call0_cst_4 : Ref sig .tc := ⟨.hbm, 43, rfl⟩
abbrev main_call0_call0_v0 : Ref sig .tc := ⟨.hbm, 44, rfl⟩
abbrev main_call0_call0_v1 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_cst_2 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_cst_3 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩

abbrev nD : Nat := 1
abbrev τ : Topo := Topo.v7x

variable {F : FTy → Type} [FloatOps F]

class Facts₀ : Prop where
  shapeCasts_S1048576x1x1x120_S1048576x120 : S1048576x1x1x120.ShapeCasts S1048576x120
  bcast_S_S1048576x120 : S_.BroadcastsInDim S1048576x120 (![] : Fin 0 → Fin S1048576x120.rank)
  shapeCasts_S120x1x1x120_S120x120 : S120x1x1x120.ShapeCasts S120x120
  bcast_S120_S1x120_1 : S120.BroadcastsInDim S1x120 (![1] : Fin 1 → Fin S1x120.rank)
  bcast_S1x120_S1048576x120_0_1 : S1x120.BroadcastsInDim S1048576x120 (![0, 1] : Fin 2 → Fin S1048576x120.rank)
  reducesTo_S1048576x120_S1048576_d1 : S1048576x120.ReducesTo [1] S1048576
  h_S_ : 0 < S_.numel
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1048576x1_S1048576x120_0_1 : S1048576x1.BroadcastsInDim S1048576x120 (![0, 1] : Fin 2 → Fin S1048576x120.rank)
  transposes_S1x120_S120x1_1_0 : S1x120.Transposes [1, 0] S120x1
  dot_S1048576x120_S120x120_S1048576x120_1_1_0_0_n_n_wf : DotDims.WF S1048576x120 S120x120 S1048576x120 [1] [1] [0] [0] [] []
  dot_S1048576x120_S120x1_S1048576x1_1_0_0_1_n_n_wf : DotDims.WF S1048576x120 S120x1 S1048576x1 [1] [0] [0] [1] [] []

variable [Facts₀]

def dot_S1048576x120_S120x120_S1048576x120_1_1_0_0_n_n : DotDims S1048576x120 S120x120 S1048576x120 where
  lhsContracting := [1]
  rhsContracting := [1]
  lhsNonContracting := [0]
  rhsNonContracting := [0]
  lhsBatch := []
  rhsBatch := []
  wf := dot_S1048576x120_S120x120_S1048576x120_1_1_0_0_n_n_wf
def dot_S1048576x120_S120x1_S1048576x1_1_0_0_1_n_n : DotDims S1048576x120 S120x1 S1048576x1 where
  lhsContracting := [1]
  rhsContracting := [0]
  lhsNonContracting := [0]
  rhsNonContracting := [1]
  lhsBatch := []
  rhsBatch := []
  wf := dot_S1048576x120_S120x1_S1048576x1_1_0_0_1_n_n_wf

class Facts : Prop extends Facts₀ where

variable [Facts]
-- ==== Proof.Spec.lean ====
/-
  The function both programs compute, one batch row at a time, on the extended reals.

  A row `x : Fin 120 → EReal` of the input is binarised (`sign (x k − 1/2)`), multiplied with the binarised
  weights (`sign (w c k)`), and the bias is added: `conv x w cb c = ∑ k, sign (x k − 1/2) · sign (w c k) + cb c`.
  The 120 channels of the row are normalised with their mean `μ` and variance `∑ c, (y c − μ)² / 120`
  (plus the constant under the reciprocal square root), scaled and shifted, passed through the softsign
  `z / (1 + |z|)` and contracted with the last weight row.

  The two programs differ in the mean only. The reference sums the row's channels and divides by 120
  (`meanRef`). The kernel appends to the weight matrix one more column, the sum of the weights over the
  output channels, and to the bias its sum, and reads the mean from that extra column times 1/120
  (`meanFused`): `(∑ k, s k · ∑ c, t c k + ∑ c, cb c) · (1/120)`. The two agree because every binarised
  value is a real number (−1, 0 or 1), so the product distributes over the inner sum and the two finite sums
  commute; the bias may be any extended real (sums of extended reals commute and associate).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- The pattern of `120.0` denotes the real 120. -/
theorem ofBits_120 : Ideal.ofBits .f32 0x42F00000#32 = ((120 : ℝ) : EReal) := by
  simp [Ideal.ofBits, Ideal.ieee, -EReal.coe_mul]; norm_num

/-- A binarised input entry: the sign of `x − 1/2`. -/
def binX (x : EReal) : EReal := Ideal.sign (x - Ideal.ofBits .f32 0x3F000000#32)

/-- Channel `c` of a row after the binarised product and the bias. -/
def conv (x : Fin 120 → EReal) (w : Fin 120 → Fin 120 → EReal) (cb : Fin 120 → EReal) (c : Fin 120) : EReal :=
  (∑ k : Fin 120, binX (x k) * Ideal.sign (w c k)) + cb c

/-- The variance of a row about `μ`: the mean of the squared deviations. -/
def variance (y : Fin 120 → EReal) (μ : EReal) : EReal :=
  Ideal.div (∑ c : Fin 120, (y c - μ) * (y c - μ)) (Ideal.ofBits .f32 0x42F00000#32)

/-- Channel `c` normalised, scaled and shifted. -/
def normed (y : Fin 120 → EReal) (μ v : EReal) (gw gb : Fin 120 → EReal) (c : Fin 120) : EReal :=
  (y c - μ) * Ideal.rsqrt (v + Ideal.ofBits .f32 0x3727C5AC#32) * gw c + gb c

/-- `z / (1 + |z|)`, the absolute value as `max z (−z)`. -/
def softsign (z : EReal) : EReal := Ideal.div z (Ideal.ofBits .f32 0x3F800000#32 + max z (-z))

/-- From a row `y` and a mean `μ` to the row's output: normalise, softsign, contract with `lw`. -/
def head (y : Fin 120 → EReal) (μ : EReal) (gw gb lw : Fin 120 → EReal) : EReal :=
  ∑ c : Fin 120, softsign (normed y μ (variance y μ) gw gb c) * lw c

/-- The mean as the reference takes it: the sum of the channels over 120. -/
def meanRef (y : Fin 120 → EReal) : EReal := Ideal.div (∑ c : Fin 120, y c) (Ideal.ofBits .f32 0x42F00000#32)

/-- The mean as the kernel takes it: the row against the column of weight sums, plus the bias sum, times 1/120. -/
def meanFused (x : Fin 120 → EReal) (w : Fin 120 → Fin 120 → EReal) (cb : Fin 120 → EReal) : EReal :=
  ((∑ k : Fin 120, binX (x k) * ∑ c : Fin 120, Ideal.sign (w c k)) + ∑ c : Fin 120, cb c) * ((1 / 120 : ℝ) : EReal)

/-- The reference's row. -/
def rowRef (x : Fin 120 → EReal) (w : Fin 120 → Fin 120 → EReal) (cb gw gb lw : Fin 120 → EReal) : EReal :=
  head (conv x w cb) (meanRef (conv x w cb)) gw gb lw

/-- The kernel's row. -/
def rowFused (x : Fin 120 → EReal) (w : Fin 120 → Fin 120 → EReal) (cb gw gb lw : Fin 120 → EReal) : EReal :=
  head (conv x w cb) (meanFused x w cb) gw gb lw

/-- A sign is a real number. -/
theorem sign_real (a : EReal) : ∃ r : ℝ, Ideal.sign a = (r : EReal) := by
  induction a using EReal.rec with
  | bot => exact ⟨-1, by rw [Ideal.sign_bot]; simp⟩
  | top => exact ⟨1, by rw [Ideal.sign_top]; simp⟩
  | coe r => exact ⟨_, Ideal.sign_coe r⟩

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Real factors: a product with a finite sum of reals distributes, and the two finite sums commute. -/
theorem sum_mul_sum_real (s : Fin 120 → ℝ) (t : Fin 120 → Fin 120 → ℝ) :
    (∑ k : Fin 120, (s k : EReal) * ∑ c : Fin 120, (t c k : EReal))
      = ∑ c : Fin 120, ∑ k : Fin 120, (s k : EReal) * (t c k : EReal) := by
  have h1 : ∀ k, (s k : EReal) * ∑ c : Fin 120, (t c k : EReal) = ((∑ c : Fin 120, s k * t c k : ℝ) : EReal) := by
    intro k
    rw [← coe_sum, ← EReal.coe_mul, Finset.mul_sum]
  calc (∑ k : Fin 120, (s k : EReal) * ∑ c : Fin 120, (t c k : EReal))
      = ∑ k : Fin 120, ((∑ c : Fin 120, s k * t c k : ℝ) : EReal) := Finset.sum_congr rfl fun k _ => h1 k
    _ = ((∑ k : Fin 120, ∑ c : Fin 120, s k * t c k : ℝ) : EReal) := (coe_sum _ _).symm
    _ = ((∑ c : Fin 120, ∑ k : Fin 120, s k * t c k : ℝ) : EReal) := by rw [Finset.sum_comm]
    _ = ∑ c : Fin 120, ((∑ k : Fin 120, s k * t c k : ℝ) : EReal) := coe_sum _ _
    _ = ∑ c : Fin 120, ∑ k : Fin 120, (s k : EReal) * (t c k : EReal) :=
        Finset.sum_congr rfl fun c _ => by
          rw [coe_sum]; exact Finset.sum_congr rfl fun k _ => EReal.coe_mul _ _

/-- The kernel's mean is the reference's. -/
theorem meanFused_eq (x : Fin 120 → EReal) (w : Fin 120 → Fin 120 → EReal) (cb : Fin 120 → EReal) :
    meanFused x w cb = meanRef (conv x w cb) := by
  obtain ⟨s, hs⟩ : ∃ s : Fin 120 → ℝ, ∀ k, binX (x k) = (s k : EReal) :=
    ⟨fun k => (sign_real _).choose, fun k => (sign_real _).choose_spec⟩
  obtain ⟨t, ht⟩ : ∃ t : Fin 120 → Fin 120 → ℝ, ∀ c k, Ideal.sign (w c k) = (t c k : EReal) :=
    ⟨fun c k => (sign_real _).choose, fun c k => (sign_real _).choose_spec⟩
  unfold meanFused meanRef conv
  rw [ofBits_120, Ideal.div_coe (by norm_num : (120 : ℝ) ≠ 0), Finset.sum_add_distrib]
  simp only [hs, ht]
  rw [sum_mul_sum_real]

/-- So the two rows are one. -/
theorem rowFused_eq_rowRef (x : Fin 120 → EReal) (w : Fin 120 → Fin 120 → EReal) (cb gw gb lw : Fin 120 → EReal) :
    rowFused x w cb gw gb lw = rowRef x w cb gw gb lw := by
  unfold rowFused rowRef
  rw [meanFused_eq]

/-- Row `b` of the result, from the argument arrays: row `b` of the input, the weight matrix, the four vectors. -/
def rowOf (a0 : FVec Ideal ⟨4, ![1048576, 1, 1, 120]⟩ .f32) (a1 : FVec Ideal ⟨4, ![120, 1, 1, 120]⟩ .f32)
    (a2 a3 a4 : FVec Ideal ⟨1, ![120]⟩ .f32) (a5 : FVec Ideal ⟨2, ![1, 120]⟩ .f32) (b : Fin 1048576) : EReal :=
  rowRef (fun k => a0 (ix4 b (0 : Fin 1) (0 : Fin 1) k)) (fun c k => a1 (ix4 c (0 : Fin 1) (0 : Fin 1) k))
    (fun c => a2 (ix1 c)) (fun c => a3 (ix1 c)) (fun c => a4 (ix1 c)) (fun c => a5 (ix2 (0 : Fin 1) c))

/-- The whole result, a column of 1048576 entries: entry `(b, 0)` is row `b`'s output. -/
def G (a0 : FVec Ideal ⟨4, ![1048576, 1, 1, 120]⟩ .f32) (a1 : FVec Ideal ⟨4, ![120, 1, 1, 120]⟩ .f32)
    (a2 a3 a4 : FVec Ideal ⟨1, ![120]⟩ .f32) (a5 : FVec Ideal ⟨2, ![1, 120]⟩ .f32) : FVec Ideal ⟨2, ![1048576, 1]⟩ .f32 :=
  fun j => rowOf a0 a1 a2 a3 a4 a5 (j 0)

theorem G_apply (a0 : FVec Ideal ⟨4, ![1048576, 1, 1, 120]⟩ .f32) (a1 : FVec Ideal ⟨4, ![120, 1, 1, 120]⟩ .f32)
    (a2 a3 a4 : FVec Ideal ⟨1, ![120]⟩ .f32) (a5 : FVec Ideal ⟨2, ![1, 120]⟩ .f32) (b : Fin 1048576) (z : Fin 1) :
    G a0 a1 a2 a3 a4 a5 (ix2 b z) = rowOf a0 a1 a2 a3 a4 a5 b := rfl

end Cert.Spec

end
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibRowSum.lean ====
/-
  A sum along the rows of a matrix, read at an index on the extended reals: a lane reduction of an [n, k] matrix
  over its columns, into the zero accumulator, is at row r the sum over the k columns of the row's entries.
-/
import Idealize.ShloMosaic.PureOps.Ideal.Laws
import Idealize.ShloMosaic.Lib.ValueIdx

namespace Idealize.ShloMosaic.ValueIdx

open Idealize.ShloMosaic

/-- The reduced index `r` with the column `d` put back is the matrix index `(r, d)`. -/
theorem lift_rows {n k : ℕ} (h : (⟨2, ![n, k]⟩ : Shape).Reduces [1] ⟨1, ![n]⟩) (r : Fin n) (d : Fin k) :
    h.lift (ix1 r) d = ix2 r d :=
  funext fun a => Fin.ext (by match a with | ⟨0, _⟩ => rfl | ⟨1, _⟩ => rfl)

/-- A float lane sum over the columns of an `[n, k]` matrix, at row `r`, is the sum of the row's `k` entries. -/
theorem multiReduction_add_rows_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ d : Fin k, src (ix2 r d) :=
  (Ideal.multiReduction_add_single src 0x00000000#32 h hφ hacc (ix1 r)).trans
    (Finset.sum_congr rfl fun d _ => congrArg src (lift_rows h r d))

end Idealize.ShloMosaic.ValueIdx
-- ==== Proof.KernelPayload.lean ====
/-
  The kernel body's arithmetic, read one batch row at a time on the extended reals.

  A block holds 8192 rows of the input (`x0`), the 120 × 121 weight matrix whose last column is the sum of the
  others' rows (`x1`), the 121 biases whose last entry is the sum of the others (`x2`), and three rows of 120
  (`x3`, `x4`, `x5`). Row `r` of the body's result is: binarise the row, multiply with the 121 columns and
  add the biases (`aug`); the first 120 entries are the channels, the last one times 1/120 is their mean; then
  the normalisation, the softsign and the contraction with `x5` — `Cert.Spec.head` of those.
-/
import proofs.«175983_j8899172237915_2_alg».proof.Proof.Gen.KernelIdeal.Skeleton
import proofs.«175983_j8899172237915_2_alg».proof.Proof.Spec
import proofs.«175983_j8899172237915_2_alg».proof.Proof.LibColumn
import proofs.«175983_j8899172237915_2_alg».proof.Proof.LibRowSum
import Idealize.ShloMosaic.Lib.ValueLayout
import Idealize.ShloMosaic.Lib.Pipeline.Value
import Idealize.ShloMosaic.PureOps.IdealRules

noncomputable section

namespace Cert.KernelIdeal.Payload

open Idealize.ShloMosaic Idealize.ShloMosaic.ValueIdx Cert.KernelIdeal Cert.KernelIdeal.Gen Cert.Spec
open scoped BigOperators

/-- The named reciprocal denotes 1/120. -/
theorem inv_120 : Named.named (F := Ideal) κ "inv_120" (φ := .f32) 0x3C088889#32 = ((1 / 120 : ℝ) : EReal) :=
  IdealRules.named_const.ideal_named_scalar _ _ _ _ rfl

/-! ## The body in stages -/

/-- The binarised block: the sign of `x − 1/2`, entry by entry. -/
def sgn (x0 : FVec Ideal S8192x120 .f32) : FVec Ideal S8192x120 .f32 :=
  select (cmpf .ogt (absf (subf (shapeCast S8192x120 x0 shapeCasts_S8192x120_S8192x120) (broadcast S8192x120 (Scalar.ofBits .f32 0x3F000000#32))))
      (broadcast S8192x120 (Scalar.ofBits .f32 0x00000000#32)))
    (select (cmpf .olt (subf (shapeCast S8192x120 x0 shapeCasts_S8192x120_S8192x120) (broadcast S8192x120 (Scalar.ofBits .f32 0x3F000000#32)))
        (constant S8192x120 .f32 0x00000000#32)) (constant S8192x120 .f32 0xBF800000#32) (constant S8192x120 .f32 0x3F800000#32))
    (subf (shapeCast S8192x120 x0 shapeCasts_S8192x120_S8192x120) (broadcast S8192x120 (Scalar.ofBits .f32 0x3F000000#32)))

/-- The product with the 121 columns plus the 121 biases. -/
def yfull (x0 : FVec Ideal S8192x120 .f32) (x1 : FVec Ideal S120x121 .bf16) (x2 : FVec Ideal S1x121 .f32) : FVec Ideal S8192x121 .f32 :=
  addf (matmul dot_S8192x120_S120x121_S8192x121_1_0_0_1_n_n none (truncf .bf16 (sgn x0) bitsLt_bf16_f32)
      (shapeCast S120x121 x1 shapeCasts_S120x121_S120x121) (constant S8192x121 .f32 0x00000000#32))
    (broadcastTo S8192x121 (shapeCast S1x121 x2 shapeCasts_S1x121_S1x121) broadcasts_S1x121_S8192x121)

/-- The mean column: the last column times the named reciprocal. -/
def meanCol (yf : FVec Ideal S8192x121 .f32) : FVec Ideal S8192x1 .f32 :=
  mulf (extractStridedSlice S8192x1 ![0, 120] yf slices_S8192x121_o0_120_S8192x1)
    (broadcast S8192x1 (Named.named κ "inv_120" 0x3C088889#32))

/-- The channels minus the mean. -/
def centered (yf : FVec Ideal S8192x121 .f32) : FVec Ideal S8192x120 .f32 :=
  subf (extractStridedSlice S8192x120 ![0, 0] yf slices_S8192x121_o0_0_S8192x120)
    (broadcastTo S8192x120 (meanCol yf) broadcasts_S8192x1_S8192x120)

/-- The reciprocal standard deviation column. -/
def rstd (ym : FVec Ideal S8192x120 .f32) : FVec Ideal S8192x1 .f32 :=
  rsqrt (addf (divf (shapeCast S8192x1 (multiReduction .add [1] S8192 (mulf ym ym) 0x00000000#32 reduces_S8192x120_S8192 (.inl rfl) rfl)
        shapeCasts_S8192_S8192x1) (broadcast S8192x1 (Scalar.ofBits .f32 0x42F00000#32)))
    (broadcast S8192x1 (Scalar.ofBits .f32 0x3727C5AC#32)))

/-- Normalised and scaled. -/
def scaled (ym : FVec Ideal S8192x120 .f32) (x3 : FVec Ideal S1x120 .f32) : FVec Ideal S8192x120 .f32 :=
  mulf (mulf ym (broadcastTo S8192x120 (rstd ym) broadcasts_S8192x1_S8192x120))
    (broadcastTo S8192x120 (shapeCast S1x120 x3 shapeCasts_S1x120_S1x120) broadcasts_S1x120_S8192x120)

/-- Shifted. -/
def shifted (v41 : FVec Ideal S8192x120 .f32) (x4 : FVec Ideal S1x120 .f32) : FVec Ideal S8192x120 .f32 :=
  addf v41 (broadcastTo S8192x120 (shapeCast S1x120 x4 shapeCasts_S1x120_S1x120) broadcasts_S1x120_S8192x120)

/-- The softsign times the last weights, summed along each row. -/
def contracted (v45 : FVec Ideal S8192x120 .f32) (x5 : FVec Ideal S1x120 .f32) : FVec Ideal S8192 .f32 :=
  multiReduction .add [1] S8192
    (mulf (divf v45 (addf (broadcast S8192x120 (Scalar.ofBits .f32 0x3F800000#32)) (absf v45)))
      (broadcastTo S8192x120 x5 broadcasts_S1x120_S8192x120))
    0x00000000#32 reduces_S8192x120_S8192 (.inl rfl) rfl

/-- The body's two payloads are these stages composed. -/
theorem pay2_eq (x0 : Vec Ideal S8192x120 .f32) (x1 : Vec Ideal S120x121 .bf16) (x2 : Vec Ideal S1x121 .f32) (x3 : Vec Ideal S1x120 .f32) :
    k0_pay2 x0 x1 x2 x3 = scaled (centered (yfull x0 x1 x2)) x3 := rfl

theorem pay1_eq (v41 : FVec Ideal S8192x120 .f32) (x4 x5 : Vec Ideal S1x120 .f32) :
    k0_pay1 v41 x4 x5 = contracted (shifted v41 x4) x5 := rfl

end Cert.KernelIdeal.Payload

end
-- ==== Proof.KernelRow.lean ====
/-
  The stages of the kernel body read at an index: row `r` of a block's result is `Cert.Spec.head` of the row's
  augmented product.
-/
import proofs.«175983_j8899172237915_2_alg».proof.Proof.KernelPayload

noncomputable section

namespace Cert.KernelIdeal.Payload

open Idealize.ShloMosaic Idealize.ShloMosaic.ValueIdx Cert.KernelIdeal Cert.KernelIdeal.Gen Cert.Spec
open scoped BigOperators

/-! ## The contraction's operand indices -/

theorem lhs_axis0 (i : S8192x121.Idx) (q : dot_S8192x120_S120x121_S8192x121_1_0_0_1_n_n.contr.Idx) :
    (dot_S8192x120_S120x121_S8192x121_1_0_0_1_n_n.lhsIdx i q 0).val = (i 0).val := by
  unfold DotDims.lhsIdx
  rw [dif_neg (show ¬(0 : Fin S8192x120.rank) ∈ dot_S8192x120_S120x121_S8192x121_1_0_0_1_n_n.lhsBatch by decide),
    dif_pos (show (0 : Fin S8192x120.rank) ∈ dot_S8192x120_S120x121_S8192x121_1_0_0_1_n_n.lhsNonContracting by decide)]
  rfl

theorem lhs_axis1 (i : S8192x121.Idx) (q : dot_S8192x120_S120x121_S8192x121_1_0_0_1_n_n.contr.Idx) :
    (dot_S8192x120_S120x121_S8192x121_1_0_0_1_n_n.lhsIdx i q 1).val = (q ⟨0, by decide⟩).val :=
  dot_S8192x120_S120x121_S8192x121_1_0_0_1_n_n.lhsIdx_val_of_single rfl i q

theorem rhs_axis0 (i : S8192x121.Idx) (q : dot_S8192x120_S120x121_S8192x121_1_0_0_1_n_n.contr.Idx) :
    (dot_S8192x120_S120x121_S8192x121_1_0_0_1_n_n.rhsIdx i q 0).val = (q ⟨0, by decide⟩).val :=
  dot_S8192x120_S120x121_S8192x121_1_0_0_1_n_n.rhsIdx_val_of_single rfl i q

theorem rhs_axis1 (i : S8192x121.Idx) (q : dot_S8192x120_S120x121_S8192x121_1_0_0_1_n_n.contr.Idx) :
    (dot_S8192x120_S120x121_S8192x121_1_0_0_1_n_n.rhsIdx i q 1).val = (i 1).val := by
  unfold DotDims.rhsIdx
  rw [dif_neg (show ¬(1 : Fin S120x121.rank) ∈ dot_S8192x120_S120x121_S8192x121_1_0_0_1_n_n.rhsBatch by decide),
    dif_pos (show (1 : Fin S120x121.rank) ∈ dot_S8192x120_S120x121_S8192x121_1_0_0_1_n_n.rhsNonContracting by decide)]
  rfl

/-- The product into the zero accumulator, at `(r, j)`: the sum over the 120 inner entries. -/
theorem matmul_row (lhs : FVec Ideal S8192x120 .bf16) (rhs : FVec Ideal S120x121 .bf16) (r : Fin 8192) (j : Fin 121) :
    matmul dot_S8192x120_S120x121_S8192x121_1_0_0_1_n_n none lhs rhs (constant S8192x121 .f32 0x00000000#32) (ix2 r j)
      = ∑ k : Fin 120, lhs (ix2 r k) * rhs (ix2 k j) := by
  show FloatOps.matmul dot_S8192x120_S120x121_S8192x121_1_0_0_1_n_n none lhs rhs (constant S8192x121 .f32 0x00000000#32) (ix2 r j) = _
  rw [Ideal.matmul_constant_zero_apply,
    ← Equiv.sum_comp (contrEquiv1 dot_S8192x120_S120x121_S8192x121_1_0_0_1_n_n 120 rfl rfl).symm]
  refine Finset.sum_congr rfl fun k _ => ?_
  have hk := contrEquiv1_symm_val dot_S8192x120_S120x121_S8192x121_1_0_0_1_n_n 120 rfl rfl k
  have el : dot_S8192x120_S120x121_S8192x121_1_0_0_1_n_n.lhsIdx (ix2 r j)
      ((contrEquiv1 dot_S8192x120_S120x121_S8192x121_1_0_0_1_n_n 120 rfl rfl).symm k) = ix2 r k :=
    funext fun a => Fin.ext (by
      match a with
      | ⟨0, _⟩ => exact lhs_axis0 _ _
      | ⟨1, _⟩ => exact (lhs_axis1 _ _).trans hk)
  have er : dot_S8192x120_S120x121_S8192x121_1_0_0_1_n_n.rhsIdx (ix2 r j)
      ((contrEquiv1 dot_S8192x120_S120x121_S8192x121_1_0_0_1_n_n 120 rfl rfl).symm k) = ix2 k j :=
    funext fun a => Fin.ext (by
      match a with
      | ⟨0, _⟩ => exact (rhs_axis0 _ _).trans hk
      | ⟨1, _⟩ => exact rhs_axis1 _ _)
  rw [el, er]

/-! ## The stages at an index -/

/-- A binarised entry. -/
theorem sgn_apply (x0 : FVec Ideal S8192x120 .f32) (i : S8192x120.Idx) : sgn x0 i = binX (x0 i) := by
  unfold sgn binX
  rw [shapeCast_self]
  exact Ideal.jnp_sign_eq_sign_f32 _

/-- The augmented row: entry `j` of row `r` of the product plus the biases. -/
def aug (x0 : FVec Ideal S8192x120 .f32) (x1 : FVec Ideal S120x121 .bf16) (x2 : FVec Ideal S1x121 .f32) (r : Fin 8192) (j : Fin 121) : EReal :=
  (∑ k : Fin 120, binX (x0 (ix2 r k)) * x1 (ix2 k j)) + x2 (ix2 (0 : Fin 1) j)

theorem yfull_apply (x0 : FVec Ideal S8192x120 .f32) (x1 : FVec Ideal S120x121 .bf16) (x2 : FVec Ideal S1x121 .f32) (r : Fin 8192) (j : Fin 121) :
    yfull x0 x1 x2 (ix2 r j) = aug x0 x1 x2 r j := by
  unfold yfull aug
  rw [addf_apply, matmul_row, shapeCast_self, shapeCast_self, broadcastTo_1b_ab_apply]
  refine congrArg (· + _) (Finset.sum_congr rfl fun k _ => ?_)
  rw [truncf_apply, sgn_apply]

/-- A lane sum along the rows, into the zero accumulator, at row `r`. -/
theorem rowsum_apply (src : FVec Ideal S8192x120 .f32) (r : Fin 8192) :
    multiReduction .add [1] S8192 src 0x00000000#32 reduces_S8192x120_S8192 (.inl rfl) rfl (ix1 r) = ∑ d : Fin 120, src (ix2 r d) :=
  multiReduction_add_rows_apply src _ _ _ r

/-- The mean column at row `r`: the last entry of the augmented row times 1/120. -/
theorem meanCol_apply (yf : FVec Ideal S8192x121 .f32) (r : Fin 8192) :
    meanCol yf (ix2 r (0 : Fin 1)) = yf (ix2 r (Fin.last 120)) * ((1 / 120 : ℝ) : EReal) := by
  unfold meanCol
  rw [mulf_apply, broadcast_apply, inv_120, slice2_axis1_apply 120 yf _ r (0 : Fin 1) (Fin.last 120) rfl]

/-- A centred channel. -/
theorem centered_apply (yf : FVec Ideal S8192x121 .f32) (r : Fin 8192) (c : Fin 120) :
    centered yf (ix2 r c) = yf (ix2 r c.castSucc) - yf (ix2 r (Fin.last 120)) * ((1 / 120 : ℝ) : EReal) := by
  unfold centered
  rw [subf_apply, slice2_axis1_apply 0 yf _ r c c.castSucc (Nat.zero_add _).symm, broadcastTo_a1_ab_apply, meanCol_apply]

/-- The reciprocal standard deviation of row `r`. -/
theorem rstd_apply (ym : FVec Ideal S8192x120 .f32) (r : Fin 8192) :
    rstd ym (ix2 r (0 : Fin 1))
      = Ideal.rsqrt (Ideal.div (∑ c : Fin 120, ym (ix2 r c) * ym (ix2 r c)) (Ideal.ofBits .f32 0x42F00000#32) + Ideal.ofBits .f32 0x3727C5AC#32) := by
  unfold rstd
  show Ideal.rsqrt (Ideal.div (shapeCast S8192x1 _ shapeCasts_S8192_S8192x1 (ix2 r (0 : Fin 1))) (Ideal.ofBits .f32 0x42F00000#32) + Ideal.ofBits .f32 0x3727C5AC#32) = _
  rw [shapeCast_a_a1_apply, rowsum_apply]
  rfl

/-- A normalised and scaled channel. -/
theorem scaled_apply (ym : FVec Ideal S8192x120 .f32) (x3 : FVec Ideal S1x120 .f32) (r : Fin 8192) (c : Fin 120) :
    scaled ym x3 (ix2 r c)
      = ym (ix2 r c) * Ideal.rsqrt (Ideal.div (∑ c : Fin 120, ym (ix2 r c) * ym (ix2 r c)) (Ideal.ofBits .f32 0x42F00000#32) + Ideal.ofBits .f32 0x3727C5AC#32)
          * x3 (ix2 (0 : Fin 1) c) := by
  unfold scaled
  rw [mulf_apply, mulf_apply, broadcastTo_a1_ab_apply, rstd_apply, shapeCast_self, broadcastTo_1b_ab_apply]

theorem shifted_apply (v41 : FVec Ideal S8192x120 .f32) (x4 : FVec Ideal S1x120 .f32) (r : Fin 8192) (c : Fin 120) :
    shifted v41 x4 (ix2 r c) = v41 (ix2 r c) + x4 (ix2 (0 : Fin 1) c) := by
  unfold shifted
  rw [addf_apply, shapeCast_self, broadcastTo_1b_ab_apply]

/-- The softsign contracted with the last weights, at row `r`. -/
theorem contracted_apply (v45 : FVec Ideal S8192x120 .f32) (x5 : FVec Ideal S1x120 .f32) (r : Fin 8192) :
    contracted v45 x5 (ix1 r) = ∑ c : Fin 120, softsign (v45 (ix2 r c)) * x5 (ix2 (0 : Fin 1) c) := by
  unfold contracted
  rw [rowsum_apply]
  refine Finset.sum_congr rfl fun c _ => ?_
  rw [mulf_apply, broadcastTo_1b_ab_apply]
  rfl

/-- Row `r` of the body's result: `Cert.Spec.head` of the augmented row's channels, with the last entry times 1/120 for the mean. -/
theorem payload_row (x0 : Vec Ideal S8192x120 .f32) (x1 : Vec Ideal S120x121 .bf16) (x2 : Vec Ideal S1x121 .f32)
    (x3 x4 x5 : Vec Ideal S1x120 .f32) (r : Fin 8192) :
    k0_pay1 (k0_pay2 x0 x1 x2 x3) x4 x5 (ix1 r)
      = head (fun c => aug x0 x1 x2 r c.castSucc) (aug x0 x1 x2 r (Fin.last 120) * ((1 / 120 : ℝ) : EReal))
          (fun c => x3 (ix2 (0 : Fin 1) c)) (fun c => x4 (ix2 (0 : Fin 1) c)) (fun c => x5 (ix2 (0 : Fin 1) c)) := by
  rw [pay2_eq, pay1_eq, contracted_apply]
  unfold head normed variance
  refine Finset.sum_congr rfl fun c _ => ?_
  rw [shifted_apply, scaled_apply]
  simp only [centered_apply, yfull_apply]

end Cert.KernelIdeal.Payload

end
-- ==== Proof.LibSumIdx1.lean ====
/-
  A sum over the index set of a rank-1 shape is the sum over its one coordinate.
-/
import Idealize.ShloMosaic.Lib.ValueIdx

namespace Idealize.ShloMosaic.ValueIdx

open scoped BigOperators

/-- The indices of a vector of length `n` are its coordinates. -/
def idxEquiv1 {n : Nat} : (⟨1, ![n]⟩ : Shape).Idx ≃ Fin n where
  toFun j := j 0
  invFun i := ix1 i
  left_inv j := (eq_ix1 j).symm
  right_inv _ := rfl

/-- A sum over a rank-1 index set, coordinate by coordinate. -/
theorem sum_idx1 {M : Type*} [AddCommMonoid M] {n : Nat} (f : (⟨1, ![n]⟩ : Shape).Idx → M) :
    ∑ j, f j = ∑ i : Fin n, f (ix1 i) :=
  Fintype.sum_equiv idxEquiv1 f (fun i => f (ix1 i)) fun j => congrArg f (eq_ix1 j)

end Idealize.ShloMosaic.ValueIdx
-- ==== Proof.KernelHost.lean ====
/-
  The arrays the kernel's region finds, as functions of the argument arrays, read at an index.

  Before the region the program reshapes the input to 1048576 × 120, builds the 120 × 121 weight matrix — the
  transposed signs of the weights, and a last column holding for each inner index `k` the sum over the output
  channels `c` of `sign (w c k)` —, the 121 biases — the bias, and a last entry holding its sum —, and views
  the two normalisation vectors as rows.
-/
import proofs.«175983_j8899172237915_2_alg».proof.Proof.Gen.KernelIdeal.Frame
import proofs.«175983_j8899172237915_2_alg».proof.Proof.LibColumn
import proofs.«175983_j8899172237915_2_alg».proof.Proof.LibSumIdx1
import Idealize.ShloMosaic.Lib.StableHlo.Run
import Idealize.ShloMosaic.Lib.Pipeline.Value
import Idealize.ShloMosaic.Lib.ValueLayout
import Idealize.ShloMosaic.PureOps.Ideal.Laws

noncomputable section

namespace Cert.KernelIdeal.HostSide

open Idealize.ShloMosaic Idealize.ShloMosaic.TcCoe Idealize.ShloMosaic.ValueIdx Idealize.SL.Sem
open Cert.KernelIdeal Cert.KernelIdeal.Gen Idealize.ShloMosaic.StableHlo
open scoped BigOperators

/-! ## The arrays as functions of the arguments -/

/-- The input as a matrix. -/
def x2d (a0 : FVec Ideal S1048576x1x1x120 .f32) : FVec Ideal S1048576x120 .f32 :=
  shapeCast S1048576x120 a0 shapeCasts_S1048576x1x1x120_S1048576x120

/-- The signs of the weights, as a matrix `(c, k)`. -/
def wsign (a1 : FVec Ideal S120x1x1x120 .f32) : FVec Ideal S120x120 .f32 :=
  Host.sign (shapeCast S120x120 a1 shapeCasts_S120x1x1x120_S120x120)

/-- The 120 × 121 matrix: column `c < 120` the signs `(k ↦ sign (w c k))`, column 120 their sums over `c`. -/
def wAug (a1 : FVec Ideal S120x1x1x120 .f32) : FVec Ideal S120x121 .bf16 :=
  truncf .bf16 (concatenate S120x121 1
    [⟨S120x120, transpose S120x120 [1, 0] (wsign a1) transposes_S120x120_S120x120_1_0⟩,
     ⟨S120x1, shapeCast S120x1 (Host.reduceAdd (wsign a1) (constant S_ .f32 0x00000000#32) reducesTo_S120x120_S120_d0 h_S_) shapeCasts_S120_S120x1⟩]
    concatenates_S120x120_S120x1_S120x121_d1) bitsLt_bf16_f32

/-- The 121 biases: the bias, then its sum. -/
def bAug (a2 : FVec Ideal S120 .f32) : FVec Ideal S1x121 .f32 :=
  concatenate S1x121 1
    [⟨S1x120, shapeCast S1x120 a2 shapeCasts_S120_S1x120⟩,
     ⟨S1x1, shapeCast S1x1 (Host.reduceAdd a2 (constant S_ .f32 0x00000000#32) reducesTo_S120_S_d0 h_S_) shapeCasts_S_S1x1⟩]
    concatenates_S1x120_S1x1_S1x121_d1

/-- A vector of 120 as a row. -/
def asRow (a : FVec Ideal S120 .f32) : FVec Ideal S1x120 .f32 := shapeCast S1x120 a shapeCasts_S120_S1x120

variable (m : (ℓ : Loc nD τ sig) → Buf (Elt Ideal) ℓ)

theorem V_v0 (c : Dev nD) : V m c main_v0 = x2d (m ((c : Thread nD τ).loc main_arg0)) := by
  show StableHlo.after hostOps0 (fun b => m (c, b)) (Proc.devRef .tc main_v0) = _
  after_results
  rfl

theorem V_v7 (c : Dev nD) : V m c main_v7 = wAug (m ((c : Thread nD τ).loc main_arg1)) := by
  show StableHlo.after hostOps0 (fun b => m (c, b)) (Proc.devRef .tc main_v7) = _
  after_results
  rfl

theorem V_v11 (c : Dev nD) : V m c main_v11 = bAug (m ((c : Thread nD τ).loc main_arg2)) := by
  show StableHlo.after hostOps0 (fun b => m (c, b)) (Proc.devRef .tc main_v11) = _
  after_results
  rfl

theorem V_v12 (c : Dev nD) : V m c main_v12 = asRow (m ((c : Thread nD τ).loc main_arg3)) := by
  show StableHlo.after hostOps0 (fun b => m (c, b)) (Proc.devRef .tc main_v12) = _
  after_results
  rfl

theorem V_v13 (c : Dev nD) : V m c main_v13 = asRow (m ((c : Thread nD τ).loc main_arg4)) := by
  show StableHlo.after hostOps0 (fun b => m (c, b)) (Proc.devRef .tc main_v13) = _
  after_results
  rfl

/-! ## Read at an index -/

theorem x2d_apply (a0 : FVec Ideal S1048576x1x1x120 .f32) (b : Fin 1048576) (k : Fin 120) :
    x2d a0 (ix2 b k) = a0 (ix4 b (0 : Fin 1) (0 : Fin 1) k) :=
  shapeCast_apply a0 _ _ _ (by
    rw [Shape.rowMajor_val_four, Shape.rowMajor_val_two]
    show ((b.val * 1 + 0) * 1 + 0) * 120 + k.val = b.val * 120 + k.val
    omega)

theorem wsign_apply (a1 : FVec Ideal S120x1x1x120 .f32) (c k : Fin 120) :
    wsign a1 (ix2 c k) = Ideal.sign (a1 (ix4 c (0 : Fin 1) (0 : Fin 1) k)) := by
  unfold wsign
  rw [Ideal.host_sign_eq_sign]
  exact congrArg Ideal.sign (shapeCast_apply a1 _ _ _ (by
    rw [Shape.rowMajor_val_four, Shape.rowMajor_val_two]
    show ((c.val * 1 + 0) * 1 + 0) * 120 + k.val = c.val * 120 + k.val
    omega))

/-- A column `c < 120` of the weight matrix: the signs of the weights of output channel `c`. -/
theorem wAug_left (a1 : FVec Ideal S120x1x1x120 .f32) (k c : Fin 120) :
    wAug a1 (ix2 k c.castSucc) = Ideal.sign (a1 (ix4 c (0 : Fin 1) (0 : Fin 1) k)) := by
  unfold wAug
  rw [truncf_apply,
    concatenate_pair_apply_left (s₁ := S120x120) (s₂ := S120x1) (1 : Fin 2) _ _ concatenates_S120x120_S120x1_S120x121_d1 (ix2 k c.castSucc) rfl (ix2 k c : S120x120.Idx)
      (fun b => by match b with | ⟨0, _⟩ => rfl | ⟨1, _⟩ => rfl),
    transpose_ix2_apply, wsign_apply]

/-- The last column: for each inner index, the sum of the signs over the output channels. -/
theorem wAug_last (a1 : FVec Ideal S120x1x1x120 .f32) (k : Fin 120) :
    wAug a1 (ix2 k (Fin.last 120)) = ∑ c : Fin 120, Ideal.sign (a1 (ix4 c (0 : Fin 1) (0 : Fin 1) k)) := by
  unfold wAug
  rw [truncf_apply,
    concatenate_pair_apply_right (s₁ := S120x120) (s₂ := S120x1) (1 : Fin 2) _ _ concatenates_S120x120_S120x1_S120x121_d1 (ix2 k (Fin.last 120)) rfl rfl (ix2 k (0 : Fin 1) : S120x1.Idx)
      (fun b hb => by match b with | ⟨0, _⟩ => rfl | ⟨1, _⟩ => exact absurd rfl hb) rfl,
    shapeCast_a_a1_apply]
  simp only [Host.reduceAdd, Ideal.hostReduceAdd_def]
  rw [Ideal.hostReduceAdd_single reducesTo_S120x120_S120_d0 (by decide)]
  show Ideal.ofBits .f32 0x00000000#32 + _ = _
  rw [Ideal.ofBits_zero_f32, zero_add]
  refine Finset.sum_congr rfl fun c _ => ?_
  refine (congrArg (wsign a1) (funext fun a => Fin.ext (by match a with | ⟨0, _⟩ => rfl | ⟨1, _⟩ => rfl))).trans (wsign_apply a1 c k)

theorem bAug_left (a2 : FVec Ideal S120 .f32) (c : Fin 120) : bAug a2 (ix2 (0 : Fin 1) c.castSucc) = a2 (ix1 c) := by
  unfold bAug
  rw [concatenate_pair_apply_left (s₁ := S1x120) (s₂ := S1x1) (1 : Fin 2) _ _ concatenates_S1x120_S1x1_S1x121_d1 (ix2 (0 : Fin 1) c.castSucc) rfl (ix2 (0 : Fin 1) c : S1x120.Idx)
      (fun b => by match b with | ⟨0, _⟩ => rfl | ⟨1, _⟩ => rfl),
    shapeCast_a_1a_apply]

theorem bAug_last (a2 : FVec Ideal S120 .f32) : bAug a2 (ix2 (0 : Fin 1) (Fin.last 120)) = ∑ c : Fin 120, a2 (ix1 c) := by
  unfold bAug
  rw [concatenate_pair_apply_right (s₁ := S1x120) (s₂ := S1x1) (1 : Fin 2) _ _ concatenates_S1x120_S1x1_S1x121_d1 (ix2 (0 : Fin 1) (Fin.last 120)) rfl rfl (ix2 (0 : Fin 1) (0 : Fin 1) : S1x1.Idx)
      (fun b hb => by match b with | ⟨0, _⟩ => rfl | ⟨1, _⟩ => exact absurd rfl hb) rfl]
  refine (shapeCast_apply _ shapeCasts_S_S1x1 _ ix0 (by rw [Shape.rowMajor_val_two]; rfl)).trans ?_
  simp only [Host.reduceAdd, Ideal.hostReduceAdd_def]
  rw [Ideal.hostReduceAdd_total reducesTo_S120_S_d0 (fun b => b.elim0)]
  show Ideal.ofBits .f32 0x00000000#32 + _ = _
  rw [Ideal.ofBits_zero_f32, zero_add]
  exact sum_idx1 a2

theorem asRow_apply (a : FVec Ideal S120 .f32) (c : Fin 120) : asRow a (ix2 (0 : Fin 1) c) = a (ix1 c) := by
  unfold asRow
  rw [shapeCast_a_1a_apply]

end Cert.KernelIdeal.HostSide

end
-- ==== Proof.KernelBlock.lean ====
/-
  One block of the kernel against the whole arrays: when a block's input rows are rows `tt · 8192 + r` of the
  input and its other operands are the weight matrix with its column of sums, the biases with their sum, and the
  three rows, row `r` of the body's result is row `tt · 8192 + r` of the result both programs compute.
  The kernel reads the mean from the extra column; `Cert.Spec.rowFused_eq_rowRef` turns that into the
  reference's mean.
-/
import proofs.«175983_j8899172237915_2_alg».proof.Proof.KernelRow
import proofs.«175983_j8899172237915_2_alg».proof.Proof.KernelHost

noncomputable section

namespace Cert.KernelIdeal.Payload

open Idealize.ShloMosaic Idealize.ShloMosaic.ValueIdx Cert.KernelIdeal Cert.KernelIdeal.Gen Cert.Spec Cert.KernelIdeal.HostSide
open scoped BigOperators

theorem block_row (x0 : Vec Ideal S8192x120 .f32) (x1 : Vec Ideal S120x121 .bf16) (x2 : Vec Ideal S1x121 .f32)
    (x3 x4 x5 : Vec Ideal S1x120 .f32)
    (a0 : FVec Ideal S1048576x1x1x120 .f32) (a1 : FVec Ideal S120x1x1x120 .f32) (a2 a3 a4 : FVec Ideal S120 .f32) (a5 : FVec Ideal S1x120 .f32)
    (r : Fin 8192) (b : Fin 1048576)
    (h0 : ∀ k : Fin 120, x0 (ix2 r k) = a0 (ix4 b (0 : Fin 1) (0 : Fin 1) k))
    (h1 : ∀ (k : Fin 120) (j : Fin 121), x1 (ix2 k j) = wAug a1 (ix2 k j))
    (h2 : ∀ j : Fin 121, x2 (ix2 (0 : Fin 1) j) = bAug a2 (ix2 (0 : Fin 1) j))
    (h3 : ∀ c : Fin 120, x3 (ix2 (0 : Fin 1) c) = a3 (ix1 c))
    (h4 : ∀ c : Fin 120, x4 (ix2 (0 : Fin 1) c) = a4 (ix1 c))
    (h5 : ∀ c : Fin 120, x5 (ix2 (0 : Fin 1) c) = a5 (ix2 (0 : Fin 1) c)) :
    k0_pay1 (k0_pay2 x0 x1 x2 x3) x4 x5 (ix1 r) = rowOf a0 a1 a2 a3 a4 a5 b := by
  rw [payload_row]
  unfold rowOf
  rw [← rowFused_eq_rowRef]
  unfold rowFused
  have hy : (fun c : Fin 120 => aug x0 x1 x2 r c.castSucc)
      = conv (fun k => a0 (ix4 b (0 : Fin 1) (0 : Fin 1) k)) (fun c k => a1 (ix4 c (0 : Fin 1) (0 : Fin 1) k)) (fun c => a2 (ix1 c)) := by
    funext c
    unfold aug conv
    rw [h2, bAug_left]
    refine congrArg (· + _) (Finset.sum_congr rfl fun k _ => ?_)
    rw [h0, h1, wAug_left]
  have hμ : aug x0 x1 x2 r (Fin.last 120) * ((1 / 120 : ℝ) : EReal)
      = meanFused (fun k => a0 (ix4 b (0 : Fin 1) (0 : Fin 1) k)) (fun c k => a1 (ix4 c (0 : Fin 1) (0 : Fin 1) k)) (fun c => a2 (ix1 c)) := by
    unfold aug meanFused
    rw [h2, bAug_last]
    refine congrArg (· * _) (congrArg (· + _) (Finset.sum_congr rfl fun k _ => ?_))
    rw [h0, h1, wAug_last]
  rw [hy, hμ]
  refine congrArg₂ (fun gw gb => head _ _ gw gb _) (funext h3) (funext h4) |>.trans ?_
  exact congrArg (head _ _ _ _) (funext h5)

end Cert.KernelIdeal.Payload

end
-- ==== Proof.KernelArray.lean ====
/-
  From the blocks to the arrays. Grid point `t` of 128 takes rows `8192 t … 8192 t + 8191` of the input and the
  whole of every other operand, and writes back entries `8192 t … 8192 t + 8191` of a vector of 1048576; the 128
  blocks cover the vector, so after the run entry `b` holds row `b`'s output. The program then views the vector
  as a column, which is the result.
-/
import proofs.«175983_j8899172237915_2_alg».proof.Proof.KernelBlock
import Idealize.ShloMosaic.Lib.Pipeline.Value

set_option maxRecDepth 16384

noncomputable section

namespace Cert.KernelIdeal.ArrayValue

open Idealize.ShloMosaic Idealize.ShloMosaic.TcCoe Idealize.ShloMosaic.ValueIdx Idealize.SL.Sem
open Cert.KernelIdeal Cert.KernelIdeal.Gen Cert.Spec Cert.KernelIdeal.HostSide Cert.KernelIdeal.Payload
open Idealize.ShloMosaic.Pipeline (Dat)

variable (m : (ℓ : Loc nD τ sig) → Buf (Elt Ideal) ℓ) (ρ : Dev nD → PrngReg)

/-- The vector the region leaves: entry `b` is row `b`'s output. -/
def rows (a0 : FVec Ideal S1048576x1x1x120 .f32) (a1 : FVec Ideal S120x1x1x120 .f32) (a2 a3 a4 : FVec Ideal S120 .f32)
    (a5 : FVec Ideal S1x120 .f32) : FVec Ideal S1048576 .f32 :=
  fun i => rowOf a0 a1 a2 a3 a4 a5 (i 0)

theorem hz1 : (![0] : Fin 1 → Nat) = fun _ => 0 := funext fun a => by fin_cases a; rfl
theorem hz2 : (![0, 0] : Fin 2 → Nat) = fun _ => 0 := funext fun a => by fin_cases a <;> rfl

/-- The index maps over the grid: the input's and the output's block index is the point, every other operand's is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = t.val :=
  (by decide +kernel : ∀ t : Fin grid0.N, _)

/-- Every block of the vector is some point's. -/
theorem idx_onto : ∀ q : Fin 128, ∃ t : Fin cfg0.N, win0_6.index t (0 : Fin 1) = q.val :=
  (by decide +kernel : ∀ q : Fin 128, ∃ t : Fin grid0.N, win0_6.index t (0 : Fin 1) = q.val)

/-- What point `t` writes back is block `t` of `rows` of the argument arrays. -/
theorem flushed_eq (c : Dev nD) (t : Fin cfg0.N) :
    (dats m 0 c).flushed 6 t = ((cfg0.win 6).blk t).view.read (Elt Ideal)
      (rows (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  show (cfg0.win 6).cut (grid0.coords t) ((dats m 0 c).after 6 t) = _
  rw [after0_6]
  unfold out0_6
  rw [View.canon_unit_zero hz1]
  simp only [View.ld_unit_zero (S := S8192x120) hz2, View.ld_unit_zero (S := S120x121) hz2, View.ld_unit_zero (S := S1x121) hz2,
    View.ld_unit_zero (S := S1x120) hz2]
  obtain ⟨e00, e01, e10, e11, e20, e21, e30, e31, e40, e41, e50, e51, e6⟩ := idx_facts t
  have hN : cfg0.N = 128 := N_0
  have key : ∀ r : Fin 8192,
      k0_pay1 (k0_pay2 (iblk m c 0 t) (iblk m c 1 t) (iblk m c 2 t) (iblk m c 3 t)) (iblk m c 4 t) (iblk m c 5 t) (ix1 r)
        = rows (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (((cfg0.win 6).blk t).view.emb (ix1 r)) := by
    intro r
    have hb : t.val * 8192 + r.val < 1048576 := by have := t.isLt; have := r.isLt; omega
    refine (block_row (iblk m c 0 t) (iblk m c 1 t) (iblk m c 2 t) (iblk m c 3 t) (iblk m c 4 t) (iblk m c 5 t)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      r ⟨t.val * 8192 + r.val, hb⟩ ?_ ?_ ?_ ?_ ?_ ?_).trans ?_
    · intro k
      show V m c main_v0 (((cfg0.win 0).blk t).view.emb (ix2 r k)) = _
      rw [V_v0]
      refine (congrArg (x2d _) ?_).trans (x2d_apply _ _ k)
      funext a; apply Fin.ext
      match a with
      | ⟨0, _⟩ => show win0_0.index t (0 : Fin 2) * 8192 + 1 * r.val = t.val * 8192 + r.val; omega
      | ⟨1, _⟩ => show win0_0.index t (1 : Fin 2) * 120 + 1 * k.val = k.val; omega
    · intro k j
      show V m c main_v7 (((cfg0.win 1).blk t).view.emb (ix2 k j)) = _
      rw [V_v7]
      refine congrArg (wAug _) ?_
      funext a; apply Fin.ext
      match a with
      | ⟨0, _⟩ => show win0_1.index t (0 : Fin 2) * 120 + 1 * k.val = k.val; omega
      | ⟨1, _⟩ => show win0_1.index t (1 : Fin 2) * 121 + 1 * j.val = j.val; omega
    · intro j
      show V m c main_v11 (((cfg0.win 2).blk t).view.emb (ix2 (0 : Fin 1) j)) = _
      rw [V_v11]
      refine congrArg (bAug _) ?_
      funext a; apply Fin.ext
      match a with
      | ⟨0, _⟩ => show win0_2.index t (0 : Fin 2) * 1 + 1 * 0 = 0; omega
      | ⟨1, _⟩ => show win0_2.index t (1 : Fin 2) * 121 + 1 * j.val = j.val; omega
    · intro c'
      show V m c main_v12 (((cfg0.win 3).blk t).view.emb (ix2 (0 : Fin 1) c')) = _
      rw [V_v12]
      refine (congrArg (asRow _) ?_).trans (asRow_apply _ c')
      funext a; apply Fin.ext
      match a with
      | ⟨0, _⟩ => show win0_3.index t (0 : Fin 2) * 1 + 1 * 0 = 0; omega
      | ⟨1, _⟩ => show win0_3.index t (1 : Fin 2) * 120 + 1 * c'.val = c'.val; omega
    · intro c'
      show V m c main_v13 (((cfg0.win 4).blk t).view.emb (ix2 (0 : Fin 1) c')) = _
      rw [V_v13]
      refine (congrArg (asRow _) ?_).trans (asRow_apply _ c')
      funext a; apply Fin.ext
      match a with
      | ⟨0, _⟩ => show win0_4.index t (0 : Fin 2) * 1 + 1 * 0 = 0; omega
      | ⟨1, _⟩ => show win0_4.index t (1 : Fin 2) * 120 + 1 * c'.val = c'.val; omega
    · intro c'
      show V m c main_arg5 (((cfg0.win 5).blk t).view.emb (ix2 (0 : Fin 1) c')) = _
      rw [V_main_arg5]
      refine congrArg (m ((c : Thread nD τ).loc main_arg5)) ?_
      funext a; apply Fin.ext
      match a with
      | ⟨0, _⟩ => show win0_5.index t (0 : Fin 2) * 1 + 1 * 0 = 0; omega
      | ⟨1, _⟩ => show win0_5.index t (1 : Fin 2) * 120 + 1 * c'.val = c'.val; omega
    · unfold rows
      refine congrArg (rowOf _ _ _ _ _ _) (Fin.ext ?_)
      show t.val * 8192 + r.val = win0_6.index t (0 : Fin 1) * 8192 + 1 * r.val
      omega
  funext y
  obtain ⟨r, rfl⟩ : ∃ r : Fin 8192, y = ix1 r := ⟨y 0, eq_ix1 y⟩
  exact key r

/-- An entry of the vector is in point `t`'s block iff it is in the block's range. -/
theorem mem_blk (t : Fin cfg0.N) (i : S1048576.Idx) :
    i ∈ ((cfg0.win 6).blk t).view.set ↔ ∀ a : Fin 1, win0_6.index t a * S8192.size a ≤ (i a).val ∧ (i a).val < win0_6.index t a * S8192.size a + S8192.size a := by
  show i ∈ ((View.whole main_v14).slice (win0_6.rect t)).set ↔ _
  rw [View.set_slice_whole, Rect.mem_set_unit]
  exact Iff.rfl

/-- The blocks cover the vector: entry `i` is in the block of point `i / 8192`. -/
theorem cover (i : S1048576.Idx) : ∃ t : Fin cfg0.N, (cfg0.win 6).flush t = true ∧ i ∈ ((cfg0.win 6).blk t).view.set := by
  have hi : (i 0).val < 1048576 := (i 0).isLt
  obtain ⟨t, ht⟩ := idx_onto ⟨(i 0).val / 8192, by omega⟩
  have q : win0_6.index t (0 : Fin 1) = (i 0).val / 8192 := ht
  refine ⟨t, flush0_6 t, ?_⟩
  rw [mem_blk]
  intro a
  match a with
  | ⟨0, _⟩ => show win0_6.index t (0 : Fin 1) * 8192 ≤ (i 0).val ∧ (i 0).val < win0_6.index t (0 : Fin 1) * 8192 + 8192; omega

/-- The region's output array after the run. -/
theorem final (c : Dev nD) : (dats m 0 c).arrAt 6 cfg0.N
    = rows (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 6 _ (fun t _ => flushed_eq m c t) cover

end Cert.KernelIdeal.ArrayValue

end
-- ==== Proof.KernelRun.lean ====
/-
  The kernel program's run, read: every weakly fair execution ends with the result column holding, at `(b, 0)`,
  row `b`'s output (`Cert.Spec.G` of the argument arrays), and the argument arrays unchanged.
-/
import proofs.«175983_j8899172237915_2_alg».proof.Proof.KernelArray
import Idealize.ShloMosaic.Lib.StableHlo.Run

set_option maxRecDepth 16384

noncomputable section

namespace Cert.KernelIdeal.ArrayValue

open Idealize.ShloMosaic Idealize.ShloMosaic.TcCoe Idealize.ShloMosaic.ValueIdx Idealize.SL.Sem
open Cert.KernelIdeal Cert.KernelIdeal.Gen Cert.Spec Idealize.ShloMosaic.StableHlo
open Idealize.ShloMosaic.Pipeline (Dat)

variable (m : (ℓ : Loc nD τ sig) → Buf (Elt Ideal) ℓ) (ρ : Dev nD → PrngReg)

/-- The vector of rows viewed as a column is the result. -/
theorem column_rows (a0 : FVec Ideal S1048576x1x1x120 .f32) (a1 : FVec Ideal S120x1x1x120 .f32) (a2 a3 a4 : FVec Ideal S120 .f32)
    (a5 : FVec Ideal S1x120 .f32) :
    shapeCast S1048576x1 (rows a0 a1 a2 a3 a4 a5) shapeCasts_S1048576_S1048576x1 = G a0 a1 a2 a3 a4 a5 := by
  funext j
  obtain ⟨b, z, rfl⟩ : ∃ (b : Fin 1048576) (z : Fin 1), j = ix2 b z := ⟨j 0, j 1, eq_ix2 j⟩
  rw [shapeCast_a_a1_apply, G_apply]
  rfl

/-- The result buffer after the operations that follow the region. -/
theorem tail_eq (c : Dev nD) :
    Pipeline.afterTail₀ cfgs (dats m) 0 (V0 m) [hostOps1] c main_v15
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have hw : Pipeline.withArrays spec0 c (V0 m c) (fun w => (dats m 0 c).arrAt w cfg0.N) (Proc.devRef .tc main_v14) = _ :=
    (Pipeline.withArrays_arr spec0 launch0.win.arr_inj c _ _ 6).trans (final m c)
  unfold Pipeline.afterTail₀
  show StableHlo.after hostOps1 _ (Proc.devRef .tc main_v15) = _
  after_results
  show shapeCast S1048576x1 (Pipeline.withArrays spec0 c (V0 m c) (fun w => (dats m 0 c).arrAt w cfg0.N) (Proc.devRef .tc main_v14))
    shapeCasts_S1048576_S1048576x1 = _
  rw [hw]
  exact column_rows _ _ _ _ _ _

/-- Every weakly fair execution of the kernel program ends with the result at `G` of the arguments and the arguments unchanged. -/
theorem run : θ_run defs (onTc (τ := τ) (main (F := Ideal))) ⟨m, fun _ => 0, ρ⟩ fun r => ∀ c : Dev nD,
      r.2.mem ((c.tc : Thread nD τ).loc main_v15)
        = G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v15 (Pipeline.mem_restRefs_of main_v15 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c)))⟩)
    (run_main m ρ)

end Cert.KernelIdeal.ArrayValue

end
-- ==== Proof.RefRun.lean ====
/-
  The reference program's @main as a list of its 62 host operations — the call of @_var and, inside it, the call of
  @_where written out at the call site over the call's buffer records — and its run read back: every weakly fair
  execution terminates with the result buffer at the operations' composed pure term of the arguments' launch
  contents, the arguments unchanged. The composed term is stated in named stages: the sign matrix of the shifted
  input, the sign matrix of the weights, their product plus the bias, the row mean, the row variance, the
  normalised rows, the softsign and the final product with the head weights.
-/
import proofs.«175983_j8899172237915_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order: its own first eighteen, then @_var's twenty over the record `main_call0` (its operand
    the eleventh result of @main, its integer argument the constant zero), then @_where's three over the record
    `main_call0.call0` (the predicate, the quotient and the not-a-number constant of @_var), then @main's last
    twenty-one. -/
abbrev ops : List (HloOp τ sig (Elt F)) :=
  [ reshape main_arg0 main_v0 rfl shapeCasts_S1048576x1x1x120_S1048576x120,
    nullary main_cst (constant S_ .f32 0x3F000000#32),
    unary main_cst main_v1 (broadcastInDim S1048576x120 ![] bcast_S_S1048576x120 : (⟨S_, .f32⟩ : BufTy).Contents (Elt F) → (⟨S1048576x120, .f32⟩ : BufTy).Contents (Elt F)),
    binary main_v0 main_v1 main_v2 (subf : (⟨S1048576x120, .f32⟩ : BufTy).Contents (Elt F) → (⟨S1048576x120, .f32⟩ : BufTy).Contents (Elt F) → (⟨S1048576x120, .f32⟩ : BufTy).Contents (Elt F)),
    unary main_v2 main_v3 (Host.sign : (⟨S1048576x120, .f32⟩ : BufTy).Contents (Elt F) → (⟨S1048576x120, .f32⟩ : BufTy).Contents (Elt F)),
    reshape main_arg1 main_v4 rfl shapeCasts_S120x1x1x120_S120x120,
    unary main_v4 main_v5 (Host.sign : (⟨S120x120, .f32⟩ : BufTy).Contents (Elt F) → (⟨S120x120, .f32⟩ : BufTy).Contents (Elt F)),
    binary main_v3 main_v5 main_v6 ((fun l r => Host.dotGeneral dot_S1048576x120_S120x120_S1048576x120_1_1_0_0_n_n none l r) : (⟨S1048576x120, .f32⟩ : BufTy).Contents (Elt F) → (⟨S120x120, .f32⟩ : BufTy).Contents (Elt F) → (⟨S1048576x120, .f32⟩ : BufTy).Contents (Elt F)),
    unary main_arg2 main_v7 (broadcastInDim S1x120 ![1] bcast_S120_S1x120_1 : (⟨S120, .f32⟩ : BufTy).Contents (Elt F) → (⟨S1x120, .f32⟩ : BufTy).Contents (Elt F)),
    unary main_v7 main_v8 (broadcastInDim S1048576x120 ![0, 1] bcast_S1x120_S1048576x120_0_1 : (⟨S1x120, .f32⟩ : BufTy).Contents (Elt F) → (⟨S1048576x120, .f32⟩ : BufTy).Contents (Elt F)),
    binary main_v6 main_v8 main_v9 (addf : (⟨S1048576x120, .f32⟩ : BufTy).Contents (Elt F) → (⟨S1048576x120, .f32⟩ : BufTy).Contents (Elt F) → (⟨S1048576x120, .f32⟩ : BufTy).Contents (Elt F)),
    nullary main_cst_0 (constant S_ .f32 0x00000000#32),
    binary main_v9 main_cst_0 main_v10 ((fun x v => Host.reduceAdd x v reducesTo_S1048576x120_S1048576_d1 h_S_) : (⟨S1048576x120, .f32⟩ : BufTy).Contents (Elt F) → (⟨S_, .f32⟩ : BufTy).Contents (Elt F) → (⟨S1048576, .f32⟩ : BufTy).Contents (Elt F)),
    unary main_v10 main_v11 (broadcastInDim S1048576x1 ![0] bcast_S1048576_S1048576x1_0 : (⟨S1048576, .f32⟩ : BufTy).Contents (Elt F) → (⟨S1048576x1, .f32⟩ : BufTy).Contents (Elt F)),
    nullary main_cst_1 (constant S_ .f32 0x42F00000#32),
    unary main_cst_1 main_v12 (broadcastInDim S1048576x1 ![] bcast_S_S1048576x1 : (⟨S_, .f32⟩ : BufTy).Contents (Elt F) → (⟨S1048576x1, .f32⟩ : BufTy).Contents (Elt F)),
    binary main_v11 main_v12 main_v13 (Host.divf : (⟨S1048576x1, .f32⟩ : BufTy).Contents (Elt F) → (⟨S1048576x1, .f32⟩ : BufTy).Contents (Elt F) → (⟨S1048576x1, .f32⟩ : BufTy).Contents (Elt F)),
    nullary main_c (constantI S_ 32 0#32),
    TRef.nullary main_call0.cst (constant S_ .f32 0x00000000#32),
    TRef.binary (.of main_v9) main_call0.cst main_call0.v0 (fun x v => Host.reduceAdd x v reducesTo_S1048576x120_S1048576_d1 h_S_),
    TRef.unary main_call0.v0 main_call0.v1 (broadcastInDim S1048576x1 ![0] bcast_S1048576_S1048576x1_0),
    TRef.nullary main_call0.cst_0 (constant S_ .f32 0x42F00000#32),
    TRef.unary main_call0.cst_0 main_call0.v2 (broadcastInDim S1048576x1 ![] bcast_S_S1048576x1),
    TRef.binary main_call0.v1 main_call0.v2 main_call0.v3 Host.divf,
    TRef.unary main_call0.v3 main_call0.v4 (broadcastInDim S1048576x120 ![0, 1] bcast_S1048576x1_S1048576x120_0_1),
    TRef.binary (.of main_v9) main_call0.v4 main_call0.v5 subf,
    TRef.binary main_call0.v5 main_call0.v5 main_call0.v6 mulf,
    TRef.unary (.of main_c) main_call0.v7 (sitofp .f32),
    TRef.nullary main_call0.cst_1 (constant S_ .f32 0x42F00000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S1048576x120_S1048576_d1 h_S_),
    TRef.unary main_call0.v9 main_call0.v10 (broadcastInDim S1048576x1 ![0] bcast_S1048576_S1048576x1_0),
    TRef.unary main_call0.v8 main_call0.v11 (broadcastInDim S1048576x1 ![] bcast_S_S1048576x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S1048576x1 ![] bcast_S_S1048576x1),
    TRef.ternary main_call0.v13 main_call0.v12 main_call0.call0.v1 main_call0.call0.v2 (fun p a b => select (broadcastInDim S1048576x1 ![] bcast_S_S1048576x1 p) a b),
    unary main_v13 main_v15 (broadcastInDim S1048576x120 ![0, 1] bcast_S1048576x1_S1048576x120_0_1 : (⟨S1048576x1, .f32⟩ : BufTy).Contents (Elt F) → (⟨S1048576x120, .f32⟩ : BufTy).Contents (Elt F)),
    binary main_v9 main_v15 main_v16 (subf : (⟨S1048576x120, .f32⟩ : BufTy).Contents (Elt F) → (⟨S1048576x120, .f32⟩ : BufTy).Contents (Elt F) → (⟨S1048576x120, .f32⟩ : BufTy).Contents (Elt F)),
    nullary main_cst_2 (constant S_ .f32 0x3727C5AC#32),
    unary main_cst_2 main_v17 (broadcastInDim S1048576x1 ![] bcast_S_S1048576x1 : (⟨S_, .f32⟩ : BufTy).Contents (Elt F) → (⟨S1048576x1, .f32⟩ : BufTy).Contents (Elt F)),
    binary main_v14 main_v17 main_v18 (addf : (⟨S1048576x1, .f32⟩ : BufTy).Contents (Elt F) → (⟨S1048576x1, .f32⟩ : BufTy).Contents (Elt F) → (⟨S1048576x1, .f32⟩ : BufTy).Contents (Elt F)),
    unary main_v18 main_v19 (Host.rsqrt : (⟨S1048576x1, .f32⟩ : BufTy).Contents (Elt F) → (⟨S1048576x1, .f32⟩ : BufTy).Contents (Elt F)),
    unary main_v19 main_v20 (broadcastInDim S1048576x120 ![0, 1] bcast_S1048576x1_S1048576x120_0_1 : (⟨S1048576x1, .f32⟩ : BufTy).Contents (Elt F) → (⟨S1048576x120, .f32⟩ : BufTy).Contents (Elt F)),
    binary main_v16 main_v20 main_v21 (mulf : (⟨S1048576x120, .f32⟩ : BufTy).Contents (Elt F) → (⟨S1048576x120, .f32⟩ : BufTy).Contents (Elt F) → (⟨S1048576x120, .f32⟩ : BufTy).Contents (Elt F)),
    unary main_arg3 main_v22 (broadcastInDim S1x120 ![1] bcast_S120_S1x120_1 : (⟨S120, .f32⟩ : BufTy).Contents (Elt F) → (⟨S1x120, .f32⟩ : BufTy).Contents (Elt F)),
    unary main_v22 main_v23 (broadcastInDim S1048576x120 ![0, 1] bcast_S1x120_S1048576x120_0_1 : (⟨S1x120, .f32⟩ : BufTy).Contents (Elt F) → (⟨S1048576x120, .f32⟩ : BufTy).Contents (Elt F)),
    binary main_v21 main_v23 main_v24 (mulf : (⟨S1048576x120, .f32⟩ : BufTy).Contents (Elt F) → (⟨S1048576x120, .f32⟩ : BufTy).Contents (Elt F) → (⟨S1048576x120, .f32⟩ : BufTy).Contents (Elt F)),
    unary main_arg4 main_v25 (broadcastInDim S1x120 ![1] bcast_S120_S1x120_1 : (⟨S120, .f32⟩ : BufTy).Contents (Elt F) → (⟨S1x120, .f32⟩ : BufTy).Contents (Elt F)),
    unary main_v25 main_v26 (broadcastInDim S1048576x120 ![0, 1] bcast_S1x120_S1048576x120_0_1 : (⟨S1x120, .f32⟩ : BufTy).Contents (Elt F) → (⟨S1048576x120, .f32⟩ : BufTy).Contents (Elt F)),
    binary main_v24 main_v26 main_v27 (addf : (⟨S1048576x120, .f32⟩ : BufTy).Contents (Elt F) → (⟨S1048576x120, .f32⟩ : BufTy).Contents (Elt F) → (⟨S1048576x120, .f32⟩ : BufTy).Contents (Elt F)),
    unary main_v27 main_v28 (Host.absf : (⟨S1048576x120, .f32⟩ : BufTy).Contents (Elt F) → (⟨S1048576x120, .f32⟩ : BufTy).Contents (Elt F)),
    nullary main_cst_3 (constant S_ .f32 0x3F800000#32),
    unary main_cst_3 main_v29 (broadcastInDim S1048576x120 ![] bcast_S_S1048576x120 : (⟨S_, .f32⟩ : BufTy).Contents (Elt F) → (⟨S1048576x120, .f32⟩ : BufTy).Contents (Elt F)),
    binary main_v29 main_v28 main_v30 (addf : (⟨S1048576x120, .f32⟩ : BufTy).Contents (Elt F) → (⟨S1048576x120, .f32⟩ : BufTy).Contents (Elt F) → (⟨S1048576x120, .f32⟩ : BufTy).Contents (Elt F)),
    binary main_v27 main_v30 main_v31 (Host.divf : (⟨S1048576x120, .f32⟩ : BufTy).Contents (Elt F) → (⟨S1048576x120, .f32⟩ : BufTy).Contents (Elt F) → (⟨S1048576x120, .f32⟩ : BufTy).Contents (Elt F)),
    unary main_arg5 main_v32 ((transpose S120x1 [1, 0] · transposes_S1x120_S120x1_1_0) : (⟨S1x120, .f32⟩ : BufTy).Contents (Elt F) → (⟨S120x1, .f32⟩ : BufTy).Contents (Elt F)),
    binary main_v31 main_v32 main_v33 ((fun l r => Host.dotGeneral dot_S1048576x120_S120x1_S1048576x1_1_0_0_1_n_n none l r) : (⟨S1048576x120, .f32⟩ : BufTy).Contents (Elt F) → (⟨S120x1, .f32⟩ : BufTy).Contents (Elt F) → (⟨S1048576x1, .f32⟩ : BufTy).Contents (Elt F)) ]

-- sixty-two binds re-associated: the rewrite under the chain recurses once per statement
set_option maxRecDepth 2048 in
/-- @main is that straight line: the two functions' definitions unfolded at their calls, both sides are one chain of
    `hlo` steps once sequencing is reassociated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., unary_bufs_sub .., binary_bufs_sub .., unary_bufs_sub .., reshape_bufs_sub ..,
    unary_bufs_sub .., binary_bufs_sub .., unary_bufs_sub .., unary_bufs_sub .., binary_bufs_sub .., nullary_bufs_sub ..,
    binary_bufs_sub .., unary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub .., unary_bufs_sub ..,
    binary_bufs_sub .., nullary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., unary_bufs_sub .., nullary_bufs_sub .., unary_bufs_sub .., binary_bufs_sub .., binary_bufs_sub ..,
    unary_bufs_sub .., binary_bufs_sub ..⟩

/-! ## The composed term, in stages -/

/-- A vector of 120 entries laid along every one of the 1048576 rows. -/
def rowBcast (v : FVec F S120 .f32) : FVec F S1048576x120 .f32 :=
  broadcastInDim S1048576x120 ![0, 1] bcast_S1x120_S1048576x120_0_1 (broadcastInDim S1x120 ![1] bcast_S120_S1x120_1 v)

/-- A column of 1048576 entries repeated along the 120 entries of each row. -/
def colBcast (v : FVec F S1048576x1 .f32) : FVec F S1048576x120 .f32 :=
  broadcastInDim S1048576x120 ![0, 1] bcast_S1048576x1_S1048576x120_0_1 v

/-- The scalar of bit pattern `b` at every entry of a column. -/
def colConst (b : BitVec 32) : FVec F S1048576x1 .f32 :=
  broadcastInDim S1048576x1 ![] bcast_S_S1048576x1 (constant S_ .f32 b)

/-- The sum of each row from the zero constant, as a column. -/
def rowSum (y : FVec F S1048576x120 .f32) : FVec F S1048576x1 .f32 :=
  broadcastInDim S1048576x1 ![0] bcast_S1048576_S1048576x1_0
    (Host.reduceAdd y (constant S_ .f32 0x00000000#32) reducesTo_S1048576x120_S1048576_d1 h_S_)

/-- The input as 1048576 rows of 120 entries, each entry replaced by the sign of (entry − 1/2). -/
def sgnX (a0 : FVec F S1048576x1x1x120 .f32) : FVec F S1048576x120 .f32 :=
  Host.sign (subf (shapeCast S1048576x120 a0 shapeCasts_S1048576x1x1x120_S1048576x120)
    (broadcastInDim S1048576x120 ![] bcast_S_S1048576x120 (constant S_ .f32 0x3F000000#32)))

/-- The weights as a 120 × 120 matrix, each entry replaced by its sign. -/
def sgnW (a1 : FVec F S120x1x1x120 .f32) : FVec F S120x120 .f32 :=
  Host.sign (shapeCast S120x120 a1 shapeCasts_S120x1x1x120_S120x120)

/-- The sign rows contracted with the sign matrix along its second axis, plus the bias along every row. -/
def conv (a0 : FVec F S1048576x1x1x120 .f32) (a1 : FVec F S120x1x1x120 .f32) (a2 : FVec F S120 .f32) :
    FVec F S1048576x120 .f32 :=
  addf (Host.dotGeneral dot_S1048576x120_S120x120_S1048576x120_1_1_0_0_n_n none (sgnX a0) (sgnW a1)) (rowBcast a2)

/-- The mean of each row: its sum divided by 120, as a column. -/
def mean (y : FVec F S1048576x120 .f32) : FVec F S1048576x1 .f32 :=
  Host.divf (rowSum y) (colConst 0x42F00000#32)

/-- The divisor of the variance: 120 minus the integer zero converted to a float. -/
def varDenom : FVec F S_ .f32 :=
  subf (constant S_ .f32 0x42F00000#32) (sitofp (F := F) .f32 (constantI S_ 32 0#32))

/-- The sum of the squared deviations of each row from its mean, divided by the variance's divisor. -/
def varQuot (y : FVec F S1048576x120 .f32) : FVec F S1048576x1 .f32 :=
  Host.divf (rowSum (mulf (subf y (colBcast (mean y))) (subf y (colBcast (mean y)))))
    (broadcastInDim S1048576x1 ![] bcast_S_S1048576x1 varDenom)

/-- The variance of each row: the quotient where the divisor is positive, the not-a-number constant elsewhere. -/
def variance (y : FVec F S1048576x120 .f32) : FVec F S1048576x1 .f32 :=
  select (broadcastInDim S1048576x1 ![] bcast_S_S1048576x1 (cmpf .ogt (varDenom (F := F)) (constant S_ .f32 0x00000000#32)))
    (varQuot y) (colConst 0x7FC00000#32)

/-- Each row centred at its mean, scaled by the reciprocal square root of (variance + ε), then by the gain and
    shifted by the offset, entry by entry. -/
def normed (y : FVec F S1048576x120 .f32) (a3 a4 : FVec F S120 .f32) : FVec F S1048576x120 .f32 :=
  addf (mulf (mulf (subf y (colBcast (mean y))) (colBcast (Host.rsqrt (addf (variance y) (colConst 0x3727C5AC#32)))))
    (rowBcast a3)) (rowBcast a4)

/-- z / (1 + |z|), entry by entry. -/
def softsign (z : FVec F S1048576x120 .f32) : FVec F S1048576x120 .f32 :=
  Host.divf z (addf (broadcastInDim S1048576x120 ![] bcast_S_S1048576x120 (constant S_ .f32 0x3F800000#32)) (Host.absf z))

/-- The head weights as a column of 120. -/
def headCol (a5 : FVec F S1x120 .f32) : FVec F S120x1 .f32 :=
  transpose S120x1 [1, 0] a5 transposes_S1x120_S120x1_1_0

/-- The result: the softsign of the normalised rows contracted with the head column. -/
def out (a0 : FVec F S1048576x1x1x120 .f32) (a1 : FVec F S120x1x1x120 .f32) (a2 a3 a4 : FVec F S120 .f32)
    (a5 : FVec F S1x120 .f32) : FVec F S1048576x1 .f32 :=
  Host.dotGeneral dot_S1048576x120_S120x1_S1048576x1_1_0_0_1_n_n none
    (softsign (normed (conv a0 a1 a2) a3 a4)) (headCol a5)

/-! ## The run -/

/-- What the result buffer holds after the operations, from any contents: the composed term of the arguments'. -/
theorem out_eq (V : Valuation τ sig (Elt F)) :
    after ops V (main_v33 : DevRef τ sig)
      = out (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

/-- On the device, for any float values, from any memory with zero counters: every weakly fair execution of @main
    terminates with the result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v33) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v33).trans (out_eq _),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp)⟩)
    (run_seq scopedRefs_eq scopedSems_eq defs main (fun _ => ops) main_eq (fun _ => ops_sub) m ρ)

end Cert.ReferenceIdeal.RefRun

end
-- ==== Proof.RefRead.lean ====
/-
  The reference's composed term read at an index, at the ideal values: each stage of the run's result is, at a row `b`
  (and a channel `c`), the corresponding stage of the row function on the extended reals — the layout operations
  read one operand entry, the two host sums and the two contractions are finite sums over `Fin 120`, the variance's
  select takes its first branch because its predicate, 120 − 0 > 0, holds.
-/
import proofs.«175983_j8899172237915_2_alg».proof.Proof.RefRun
import proofs.«175983_j8899172237915_2_alg».proof.Proof.Spec
import Idealize.ShloMosaic.PureOps.Ideal.Laws
import Idealize.ShloMosaic.Lib.ValueIdx
import Idealize.ShloMosaic.Lib.Pipeline.Value

noncomputable section

namespace Cert.ReferenceIdeal.RefRead

open Cert.ReferenceIdeal Cert.ReferenceIdeal.Gen Cert.ReferenceIdeal.RefRun Idealize.ShloMosaic Idealize.ShloMosaic.ValueIdx
open scoped BigOperators

/-! ## Layout -/

/-- A vector laid along every row reads, at (b, c), its entry c. -/
theorem rowBcast_apply (v : FVec Ideal S120 .f32) (b : Fin 1048576) (c : Fin 120) :
    rowBcast v (ix2 b c) = v (ix1 c) := by
  unfold rowBcast
  refine (broadcastInDim_apply _ _ _ (ix2 b c) (ix2 (0 : Fin 1) c) (fun a => ?_)).trans
    (broadcastInDim_apply _ _ _ (ix2 (0 : Fin 1) c) (ix1 c) (fun a => ?_))
  · match a with | ⟨0, _⟩ => rfl | ⟨1, _⟩ => rfl
  · match a with | ⟨0, _⟩ => rfl

/-- A column repeated along each row reads, at (b, c), its entry b. -/
theorem colBcast_apply (v : FVec Ideal S1048576x1 .f32) (b : Fin 1048576) (c : Fin 120) :
    colBcast v (ix2 b c) = v (ix2 b (0 : Fin 1)) := by
  unfold colBcast
  refine broadcastInDim_apply _ _ _ (ix2 b c) (ix2 b (0 : Fin 1)) (fun a => ?_)
  match a with | ⟨0, _⟩ => rfl | ⟨1, _⟩ => rfl

/-- The head weights as a column read, at (k, 0), entry (0, k). -/
theorem headCol_apply (a5 : FVec Ideal S1x120 .f32) (k : Fin 120) (z : Fin 1) :
    headCol a5 (ix2 k z) = a5 (ix2 (0 : Fin 1) k) := by
  unfold headCol
  refine transpose_apply _ a5 _ (ix2 k z) (ix2 (0 : Fin 1) k) (fun a => ?_)
  match a with
  | ⟨0, _⟩ => rfl
  | ⟨1, _⟩ => show (0 : Fin 1).val = z.val; omega

/-- A scalar spread over a column reads the scalar. -/
theorem scalarCol_apply {α : Type} (x : S_.Idx → α) (j : S1048576x1.Idx) :
    broadcastInDim S1048576x1 ![] bcast_S_S1048576x1 x j = x ix0 :=
  broadcastInDim_apply _ _ _ j ix0 (fun a => a.elim0)

/-- The host's division at an index is the division of the entries. -/
theorem hostDivf_apply {s : Shape} (x y : FVec Ideal s .f32) (i : s.Idx) : Host.divf x y i = Ideal.div (x i) (y i) := rfl

/-! ## The two sums -/

/-- The row sum at row b is the sum of the row's 120 entries (the initial zero dropped). -/
theorem rowSum_apply (y : FVec Ideal S1048576x120 .f32) (b : Fin 1048576) (z : Fin 1) :
    rowSum y (ix2 b z) = ∑ c : Fin 120, y (ix2 b c) := by
  have hR : S1048576x120.Reduces [1] S1048576 := by decide
  unfold rowSum
  refine (broadcastInDim_apply _ _ _ (ix2 b z) (ix1 b) (fun a => ?_)).trans ?_
  · match a with | ⟨0, _⟩ => rfl
  refine (Ideal.hostReduceAdd_single reducesTo_S1048576x120_S1048576_d1 hR y _ (ix1 b)).trans ?_
  refine (congrArg (· + _) Ideal.ofBits_zero_f32).trans ((zero_add _).trans ?_)
  exact Finset.sum_congr rfl fun k _ => congrArg y (funext fun a => by
    match a with
    | ⟨0, _⟩ => exact Fin.ext rfl
    | ⟨1, _⟩ => exact Fin.ext rfl)

/-- The first contraction at (b, c): the sum over k of the left factor at (b, k) times the right factor at (c, k). -/
theorem dot1_apply (l : FVec Ideal S1048576x120 .f32) (r : FVec Ideal S120x120 .f32) (b : Fin 1048576) (c : Fin 120) :
    Host.dotGeneral dot_S1048576x120_S120x120_S1048576x120_1_1_0_0_n_n none l r (ix2 b c)
      = ∑ k : Fin 120, l (ix2 b k) * r (ix2 c k) := by
  refine (Ideal.dotGeneral_apply _ _ _ l r (ix2 b c)).trans ?_
  refine Fintype.sum_equiv (contrEquiv1 dot_S1048576x120_S120x120_S1048576x120_1_1_0_0_n_n 120 rfl rfl) _ _ fun k => ?_
  congr 1
  · refine congrArg l (funext fun a => ?_)
    match a with
    | ⟨0, _⟩ => exact Fin.ext rfl
    | ⟨1, _⟩ => exact Fin.ext rfl
  · refine congrArg r (funext fun a => ?_)
    match a with
    | ⟨0, _⟩ => exact Fin.ext rfl
    | ⟨1, _⟩ => exact Fin.ext rfl

/-- The second contraction at (b, 0): the sum over k of the left factor at (b, k) times the column at (k, 0). -/
theorem dot2_apply (l : FVec Ideal S1048576x120 .f32) (r : FVec Ideal S120x1 .f32) (b : Fin 1048576) (z : Fin 1) :
    Host.dotGeneral dot_S1048576x120_S120x1_S1048576x1_1_0_0_1_n_n none l r (ix2 b z)
      = ∑ k : Fin 120, l (ix2 b k) * r (ix2 k z) := by
  refine (Ideal.dotGeneral_apply _ _ _ l r (ix2 b z)).trans ?_
  refine Fintype.sum_equiv (contrEquiv1 dot_S1048576x120_S120x1_S1048576x1_1_0_0_1_n_n 120 rfl rfl) _ _ fun k => ?_
  congr 1
  · refine congrArg l (funext fun a => ?_)
    match a with
    | ⟨0, _⟩ => exact Fin.ext rfl
    | ⟨1, _⟩ => exact Fin.ext rfl
  · refine congrArg r (funext fun a => ?_)
    match a with
    | ⟨0, _⟩ => exact Fin.ext rfl
    | ⟨1, _⟩ => exact Fin.ext rfl

/-! ## The stages -/

theorem sgnX_apply (a0 : FVec Ideal S1048576x1x1x120 .f32) (b : Fin 1048576) (k : Fin 120) :
    sgnX a0 (ix2 b k) = Cert.Spec.binX (a0 (ix4 b (0 : Fin 1) (0 : Fin 1) k)) := by
  have h : shapeCast S1048576x120 a0 shapeCasts_S1048576x1x1x120_S1048576x120 (ix2 b k)
      = a0 (ix4 b (0 : Fin 1) (0 : Fin 1) k) :=
    shapeCast_apply a0 _ (ix2 b k) (ix4 b (0 : Fin 1) (0 : Fin 1) k) (by
      rw [Shape.rowMajor_val_four, Shape.rowMajor_val_two]
      show ((b.val * 1 + 0) * 1 + 0) * 120 + k.val = b.val * 120 + k.val
      omega)
  exact congrArg (fun t => Ideal.sign (t - Ideal.ofBits .f32 0x3F000000#32)) h

theorem sgnW_apply (a1 : FVec Ideal S120x1x1x120 .f32) (c k : Fin 120) :
    sgnW a1 (ix2 c k) = Ideal.sign (a1 (ix4 c (0 : Fin 1) (0 : Fin 1) k)) := by
  have h : shapeCast S120x120 a1 shapeCasts_S120x1x1x120_S120x120 (ix2 c k)
      = a1 (ix4 c (0 : Fin 1) (0 : Fin 1) k) :=
    shapeCast_apply a1 _ (ix2 c k) (ix4 c (0 : Fin 1) (0 : Fin 1) k) (by
      rw [Shape.rowMajor_val_four, Shape.rowMajor_val_two]
      show ((c.val * 1 + 0) * 1 + 0) * 120 + k.val = c.val * 120 + k.val
      omega)
  exact congrArg Ideal.sign h

theorem conv_apply (a0 : FVec Ideal S1048576x1x1x120 .f32) (a1 : FVec Ideal S120x1x1x120 .f32)
    (a2 : FVec Ideal S120 .f32) (b : Fin 1048576) (c : Fin 120) :
    conv a0 a1 a2 (ix2 b c)
      = Cert.Spec.conv (fun k => a0 (ix4 b (0 : Fin 1) (0 : Fin 1) k)) (fun c k => a1 (ix4 c (0 : Fin 1) (0 : Fin 1) k))
          (fun c => a2 (ix1 c)) c := by
  unfold conv Cert.Spec.conv
  show Host.dotGeneral dot_S1048576x120_S120x120_S1048576x120_1_1_0_0_n_n none (sgnX a0) (sgnW a1) (ix2 b c)
      + rowBcast a2 (ix2 b c) = _
  rw [dot1_apply, rowBcast_apply]
  exact congrArg (· + a2 (ix1 c)) (Finset.sum_congr rfl fun k _ => by rw [sgnX_apply, sgnW_apply])

theorem mean_apply (y : FVec Ideal S1048576x120 .f32) (b : Fin 1048576) (z : Fin 1) :
    mean y (ix2 b z) = Cert.Spec.meanRef (fun c => y (ix2 b c)) := by
  unfold mean Cert.Spec.meanRef
  rw [hostDivf_apply, rowSum_apply]
  rfl

/-- The variance's divisor: 120 − 0 is 120. -/
theorem varDenom_apply (i : S_.Idx) : varDenom (F := Ideal) i = Ideal.ofBits .f32 0x42F00000#32 := by
  show Ideal.ofBits .f32 0x42F00000#32 - (((0#32 : BitVec 32).toInt : ℝ) : EReal) = _
  rw [BitVec.toInt_zero, Int.cast_zero, EReal.coe_zero, sub_zero]

/-- The select's predicate, 120 − 0 > 0, holds. -/
theorem varPred_apply (i : S_.Idx) :
    cmpf .ogt (varDenom (F := Ideal)) (constant S_ .f32 0x00000000#32) i = 1#1 := by
  show Ideal.cmp .ogt (varDenom (F := Ideal) i) (Ideal.ofBits .f32 0x00000000#32) = 1#1
  rw [varDenom_apply, Ideal.ofBits_zero_f32, Cert.Spec.ofBits_120]
  have h : (0 : EReal) < ((120 : ℝ) : EReal) := by exact_mod_cast (by norm_num : (0 : ℝ) < 120)
  unfold Ideal.cmp
  simp [h]

theorem varQuot_apply (y : FVec Ideal S1048576x120 .f32) (b : Fin 1048576) (z : Fin 1) :
    varQuot y (ix2 b z) = Cert.Spec.variance (fun c => y (ix2 b c)) (Cert.Spec.meanRef (fun c => y (ix2 b c))) := by
  unfold varQuot Cert.Spec.variance
  rw [hostDivf_apply, scalarCol_apply, rowSum_apply, varDenom_apply]
  refine congrArg (fun s => Ideal.div s _) (Finset.sum_congr rfl fun c _ => ?_)
  show (y (ix2 b c) - colBcast (mean y) (ix2 b c)) * (y (ix2 b c) - colBcast (mean y) (ix2 b c)) = _
  rw [colBcast_apply, mean_apply]

/-- So the select returns the quotient. -/
theorem variance_apply (y : FVec Ideal S1048576x120 .f32) (b : Fin 1048576) (z : Fin 1) :
    variance y (ix2 b z) = Cert.Spec.variance (fun c => y (ix2 b c)) (Cert.Spec.meanRef (fun c => y (ix2 b c))) := by
  unfold variance
  rw [select_apply, scalarCol_apply, varPred_apply, select_one, varQuot_apply]

theorem normed_apply (y : FVec Ideal S1048576x120 .f32) (a3 a4 : FVec Ideal S120 .f32) (b : Fin 1048576) (c : Fin 120) :
    normed y a3 a4 (ix2 b c)
      = Cert.Spec.normed (fun c => y (ix2 b c)) (Cert.Spec.meanRef (fun c => y (ix2 b c)))
          (Cert.Spec.variance (fun c => y (ix2 b c)) (Cert.Spec.meanRef (fun c => y (ix2 b c))))
          (fun c => a3 (ix1 c)) (fun c => a4 (ix1 c)) c := by
  unfold normed Cert.Spec.normed
  show (y (ix2 b c) - colBcast (mean y) (ix2 b c))
      * colBcast (Host.rsqrt (addf (variance y) (colConst 0x3727C5AC#32))) (ix2 b c) * rowBcast a3 (ix2 b c)
      + rowBcast a4 (ix2 b c) = _
  rw [colBcast_apply, colBcast_apply, rowBcast_apply, rowBcast_apply, mean_apply]
  show _ * Ideal.rsqrt (variance y (ix2 b (0 : Fin 1)) + Ideal.ofBits .f32 0x3727C5AC#32) * _ + _ = _
  rw [variance_apply]

theorem softsign_apply (z : FVec Ideal S1048576x120 .f32) (i : S1048576x120.Idx) :
    softsign z i = Cert.Spec.softsign (z i) := rfl

/-! ## The result -/

/-- The run's result is the row function at every row. -/
theorem out_eq (a0 : FVec Ideal S1048576x1x1x120 .f32) (a1 : FVec Ideal S120x1x1x120 .f32) (a2 a3 a4 : FVec Ideal S120 .f32)
    (a5 : FVec Ideal S1x120 .f32) :
    RefRun.out (F := Ideal) a0 a1 a2 a3 a4 a5 = Cert.Spec.G a0 a1 a2 a3 a4 a5 := by
  funext j
  obtain ⟨b, z, rfl⟩ : ∃ (b : Fin 1048576) (z : Fin 1), j = ix2 b z := ⟨j 0, j 1, eq_ix2 j⟩
  have hy : (fun c => conv a0 a1 a2 (ix2 b c))
      = Cert.Spec.conv (fun k => a0 (ix4 b (0 : Fin 1) (0 : Fin 1) k)) (fun c k => a1 (ix4 c (0 : Fin 1) (0 : Fin 1) k))
          (fun c => a2 (ix1 c)) := funext fun c => conv_apply a0 a1 a2 b c
  rw [Cert.Spec.G_apply]
  unfold RefRun.out Cert.Spec.rowOf Cert.Spec.rowRef Cert.Spec.head
  rw [dot2_apply]
  refine Finset.sum_congr rfl fun c _ => ?_
  rw [softsign_apply, normed_apply, headCol_apply, hy]

end Cert.ReferenceIdeal.RefRead

end
-- ==== Proof.lean ====
/-
  The claim: a binarised 120 × 120 product with bias, the normalisation of each row's 120 channels by their mean and
  variance, a softsign and a contraction with one more weight row, over 1048576 rows — computed by a kernel tiled
  over 128 blocks of 8192 rows against a plain array program.

  On the extended reals both programs compute `Cert.Spec.G` of the argument arrays, one row at a time
  (`Cert.Spec.rowRef`). The reference does so operation by operation. The kernel differs in one place: it reads
  each row's mean from an extra column of the weight matrix (the sum of the other columns, with the sum of the biases
  beside it) times the constant 1/120, where the reference sums the row's channels and divides by 120. The two
  means agree because every binarised value is a real number, so the product distributes over the inner sum and the
  two finite sums commute (`Cert.Spec.meanFused_eq`). No finiteness of the inputs is used.

  The three frames are the generated runs; the kernel's idealisation replaced the sign-bit idiom by a comparison and
  named the constant 1/120, which are the two conjuncts of `preserves`.
-/
import proofs.«175983_j8899172237915_2_alg».proof.Defs
import proofs.«175983_j8899172237915_2_alg».proof.Proof.Gen.Kernel
import proofs.«175983_j8899172237915_2_alg».proof.Proof.Gen.Kernel.Skeleton
import proofs.«175983_j8899172237915_2_alg».proof.Proof.Gen.Kernel.Launch
import proofs.«175983_j8899172237915_2_alg».proof.Proof.Gen.Kernel.Points
import proofs.«175983_j8899172237915_2_alg».proof.Proof.Gen.Kernel.Frame
import proofs.«175983_j8899172237915_2_alg».proof.Proof.Gen.KernelIdeal
import proofs.«175983_j8899172237915_2_alg».proof.Proof.Gen.KernelIdeal.Skeleton
import proofs.«175983_j8899172237915_2_alg».proof.Proof.Gen.KernelIdeal.Launch
import proofs.«175983_j8899172237915_2_alg».proof.Proof.Gen.KernelIdeal.Points
import proofs.«175983_j8899172237915_2_alg».proof.Proof.Gen.KernelIdeal.Frame
import proofs.«175983_j8899172237915_2_alg».proof.Proof.Gen.ReferenceIdeal
import proofs.«175983_j8899172237915_2_alg».proof.Proof.Gen.Pre_finite_inputs
import proofs.«175983_j8899172237915_2_alg».proof.Proof.KernelRun
import proofs.«175983_j8899172237915_2_alg».proof.Proof.RefRead
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The two rewrites of the idealisation: the sign-bit idiom as a comparison with zero, and the constant named 1/120. -/
theorem preserves : Cert.preserves_Kernel_KernelIdeal :=
  ⟨IdealRules.sign_bit.statement Cert.KernelIdeal.S8192x120 .f32,
    IdealRules.named_const.statement Cert.KernelIdeal.κ "inv_120" .f32 0x3C088889#32 ((1 / 120 : ℝ) : EReal) rfl⟩

/-- Both programs end with the result at `Cert.Spec.G` of the (agreeing) arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefRead.out_eq, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
